-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S4096x128 .f32 .bf16
  ∧ IdealRules.truncf_extf.Statement Cert.KernelIdeal.S128x128 .f32 .bf16
  ∧ IdealRules.truncf_extf.Statement Cert.KernelIdeal.S4096x128 .f32 .bf16
  ∧ IdealRules.truncf_extf.Statement Cert.KernelIdeal.S128x128 .f32 .bf16
  ∧ IdealRules.truncf_extf.Statement Cert.KernelIdeal.S1024x128 .f32 .bf16
  ∧ IdealRules.truncf_extf.Statement Cert.KernelIdeal.S128x128 .f32 .bf16
  ∧ IdealRules.truncf_extf.Statement Cert.KernelIdeal.S1024x128 .f32 .bf16
  ∧ IdealRules.truncf_extf.Statement Cert.KernelIdeal.S1024x128 .f32 .bf16
  ∧ IdealRules.truncf_extf.Statement Cert.KernelIdeal.S1024x1024 .f32 .bf16
  ∧ IdealRules.truncf_extf.Statement Cert.KernelIdeal.S1024x128 .f32 .bf16
  ∧ IdealRules.truncf_extf.Statement Cert.KernelIdeal.S1024x128 .f32 .bf16
  ∧ IdealRules.truncf_extf.Statement Cert.KernelIdeal.S1024x128 .f32 .bf16
  ∧ IdealRules.truncf_extf.Statement Cert.KernelIdeal.S1024x1024 .f32 .bf16
  ∧ IdealRules.truncf_extf.Statement Cert.KernelIdeal.S1024x128 .f32 .bf16
  ∧ IdealRules.truncf_extf.Statement Cert.KernelIdeal.S1024x128 .f32 .bf16
  ∧ IdealRules.truncf_extf.Statement Cert.KernelIdeal.S1024x128 .f32 .bf16
  ∧ IdealRules.truncf_extf.Statement Cert.KernelIdeal.S1024x1024 .f32 .bf16
  ∧ IdealRules.truncf_extf.Statement Cert.KernelIdeal.S1024x128 .f32 .bf16
  ∧ IdealRules.truncf_extf.Statement Cert.KernelIdeal.S1024x128 .f32 .bf16
  ∧ IdealRules.truncf_extf.Statement Cert.KernelIdeal.S1024x128 .f32 .bf16
  ∧ IdealRules.truncf_extf.Statement Cert.KernelIdeal.S1024x1024 .f32 .bf16
  ∧ IdealRules.truncf_extf.Statement Cert.KernelIdeal.S1024x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S128x128 : Shape := ⟨2, ![128, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S4x4096x128 .f32) (main_arg1 : FVec F S4x4096x128 .f32) (main_arg2 : FVec F S128x128 .f32) (main_arg3 : FVec F S128x128 .f32) (main_arg4 : FVec F S128x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S4x4096x128 : Shape := ⟨3, ![4, 4096, 128]⟩
abbrev S128x128 : Shape := ⟨2, ![128, 128]⟩
abbrev S1x1024x128 : Shape := ⟨3, ![1, 1024, 128]⟩
abbrev S1x4096x128 : Shape := ⟨3, ![1, 4096, 128]⟩
abbrev S4096x128 : Shape := ⟨2, ![4096, 128]⟩
abbrev S1024x128 : Shape := ⟨2, ![1024, 128]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S4x4096x128, .f32⟩
  | .local _ .vmem, ⟨0, _⟩ => ⟨S1x1024x128, .f32⟩
  | .local _ .vmem, ⟨1, _⟩ => ⟨S1x1024x128, .f32⟩
  | .local _ .vmem, ⟨2, _⟩ => ⟨S1x4096x128, .f32⟩
  | .local _ .vmem, ⟨3, _⟩ => ⟨S1x4096x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x1024x128, .f32⟩
  | .local _ .vmem, ⟨8, _⟩ => ⟨S1x1024x128, .f32⟩
  | .local _ .vmem, ⟨9, _⟩ => ⟨S4096x128, .f32⟩
  | .local _ .vmem, ⟨10, _⟩ => ⟨S4096x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S4096x128_S1024x128_0_0 : ∀ a, (![0, 0] : Fin 2 → Nat) a + S1024x128.size a ≤ S4096x128.size a
  h_S1024x128 : 0 < S1024x128.numel
  inb_S4096x128_S1024x128_1024_0 : ∀ a, (![1024, 0] : Fin 2 → Nat) a + S1024x128.size a ≤ S4096x128.size a
  inb_S4096x128_S1024x128_2048_0 : ∀ a, (![2048, 0] : Fin 2 → Nat) a + S1024x128.size a ≤ S4096x128.size a
  inb_S4096x128_S1024x128_3072_0 : ∀ a, (![3072, 0] : Fin 2 → Nat) a + S1024x128.size a ≤ S4096x128.size a
  shapeCasts_S1024x128_S1x1024x128 : S1024x128.ShapeCasts S1x1024x128
  dot_S4096x128_S128x128_S4096x128_1_1_0_0_n_n_wf : DotDims.WF S4096x128 S128x128 S4096x128 [1] [1] [0] [0] [] []
  dot_S1024x128_S128x128_S1024x128_1_1_0_0_n_n_wf : DotDims.WF S1024x128 S128x128 S1024x128 [1] [1] [0] [0] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x4096x128.size a
  hwx0_0 : ∀ i : grid0.Coords, EltTy.bits .f32 = 32 ∨ (Rect.block (s := S4x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S4x4096x128.size a
  hwx0_1 : ∀ i : grid0.Coords, EltTy.bits .f32 = 32 ∨ (Rect.block (s := S4x4096x128) S1x4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S4x4096x128.size a
  hwx0_5 : ∀ i : grid0.Coords, EltTy.bits .f32 = 32 ∨ (Rect.block (s := S4x4096x128) S1x1024x128.size (cc0_transform_5 i) (hinb0_5 i)).WholeWords (EltTy.packing .f32)

variable [Facts₀]

def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf
def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg1) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x128 : Shape := ⟨3, ![4, 4096, 128]⟩
abbrev S128x128 : Shape := ⟨2, ![128, 128]⟩
abbrev S4x4096x4096 : Shape := ⟨3, ![4, 4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S4x4096x128, .f32⟩
  | .hbm, ⟨6, _⟩ => ⟨S4x4096x128, .f32⟩
  | .hbm, ⟨7, _⟩ => ⟨S4x4096x128, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x128_S128x128_S4x4096x128_2_1_01_0_n_n_wf : DotDims.WF S4x4096x128 S128x128 S4x4096x128 [2] [1] [0, 1] [0] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S128x128_S4x4096x128_2_1_01_0_n_n : DotDims S4x4096x128 S128x128 S4x4096x128 where
  lhsContracting := [2]
  rhsContracting := [1]
  lhsNonContracting := [0, 1]
  rhsNonContracting := [0]
  lhsBatch := []
  rhsBatch := []
  wf := dot_S4x4096x128_S128x128_S4x4096x128_2_1_01_0_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.Body.lean ====
/-
  The kernel body's arithmetic, restated over one named building block.

  Every matrix product in the body is a three-term split product: each operand x is cut into a high part hi(x)
  (x narrowed to bf16) and a low part lo(x) = x - widen(hi(x)) narrowed again, and the product is
  hi(a)·hi(b) + hi(a)·lo(b) + lo(a)·hi(b), each term a matmul from the zero accumulator. Where narrowing followed by
  widening has been replaced by the identity, lo(x) is spelt x - x.  With `split3` naming that block, one grid point
  computes: the keys and values of a whole batch (two split products of the context block against a weight matrix,
  stored into the two carried scratch buffers at the first query tile of a batch), the queries of its tile (one split
  product), and, for each of four runs of 1024 key positions, the scaled scores against that run's keys (a split product
  times the scale) and their split product with that run's values, all added onto a zero start.  The generated payloads
  are these compositions by definitional unfolding.
-/
import proofs.«158320_j10204842295864_2_alg».proof.Proof.Gen.KernelIdeal.Skeleton

noncomputable section

namespace Cert.KernelIdeal.Body

open Cert.KernelIdeal Cert.KernelIdeal.Gen Idealize.ShloMosaic

variable {F : FTy → Type} [FloatOps F]

/-- The three-term split product hi(a)·hi(b) + hi(a)·lo(b) + lo(a)·hi(b) for a dimension record `d`. -/
def split3 {sl sr so : Shape} (d : DotDims sl sr so) (a : FVec F sl .f32) (b : FVec F sr .f32) : FVec F so .f32 :=
  addf (addf
      (matmul d none (truncf .bf16 a Facts₀.bitsLt_bf16_f32) (truncf .bf16 b Facts₀.bitsLt_bf16_f32) (constant so .f32 0x00000000#32))
      (matmul d none (truncf .bf16 a Facts₀.bitsLt_bf16_f32) (truncf .bf16 (subf b b) Facts₀.bitsLt_bf16_f32) (constant so .f32 0x00000000#32)))
    (matmul d none (truncf .bf16 (subf a a) Facts₀.bitsLt_bf16_f32) (truncf .bf16 b Facts₀.bitsLt_bf16_f32) (constant so .f32 0x00000000#32))

/-- A batch's context block [1, 4096, 128] projected by a weight matrix [128, 128]: rows against rows. -/
def proj (x : Vec F S1x4096x128 .f32) (w : Vec F S128x128 .f32) : FVec F S4096x128 .f32 :=
  split3 dot_S4096x128_S128x128_S4096x128_1_1_0_0_n_n (shapeCast S4096x128 x Facts₀.shapeCasts_S1x4096x128_S4096x128) w

theorem pay3_eq (x : Vec F S1x4096x128 .f32) (w : Vec F S128x128 .f32) :
    k0_pay3 x w = shapeCast S4096x128 (proj x w) Facts₀.shapeCasts_S4096x128_S4096x128 := rfl

theorem pay4_eq (x : Vec F S1x4096x128 .f32) (w : Vec F S128x128 .f32) :
    k0_pay4 x w = shapeCast S4096x128 (proj x w) Facts₀.shapeCasts_S4096x128_S4096x128 := rfl

/-- A query tile [1, 1024, 128] projected by the query weights. -/
def queries (x : Vec F S1x1024x128 .f32) (w : Vec F S128x128 .f32) : FVec F S1024x128 .f32 :=
  split3 dot_S1024x128_S128x128_S1024x128_1_1_0_0_n_n (shapeCast S1024x128 x Facts₀.shapeCasts_S1x1024x128_S1024x128) w

theorem pay5_eq (x : Vec F S1x1024x128 .f32) (w : Vec F S128x128 .f32) : k0_pay5 x w = queries x w := rfl

/-- One run of 1024 key positions: the scaled scores of the queries against the run's keys, times the run's values. -/
def chunk (q kc vc : FVec F S1024x128 .f32) : FVec F S1024x128 .f32 :=
  split3 dot_S1024x1024_S1024x128_S1024x128_1_0_0_1_n_n
    (mulf (split3 dot_S1024x128_S1024x128_S1024x1024_1_1_0_0_n_n q kc) (broadcast S1024x1024 (Scalar.ofBits .f32 0x3DB504F3#32))) vc

/-- What a grid point stores into its output block, from its query tile, the query weights and the four runs of
    keys and values it loads from the scratch buffers. -/
def bodyOut (x : Vec F S1x1024x128 .f32) (w : Vec F S128x128 .f32)
    (k0 v0 k1 v1 k2 v2 k3 v3 : Vec F S1024x128 .f32) : FVec F S1x1024x128 .f32 :=
  shapeCast S1x1024x128
    (addf (addf (addf (addf (broadcast S1024x128 (Scalar.ofBits .f32 0x00000000#32))
      (chunk (queries x w) k0 v0)) (chunk (queries x w) k1 v1)) (chunk (queries x w) k2 v2)) (chunk (queries x w) k3 v3))
    Facts₀.shapeCasts_S1024x128_S1x1024x128

theorem out_eq (x : Vec F S1x1024x128 .f32) (w : Vec F S128x128 .f32)
    (k0 v0 k1 v1 k2 v2 k3 v3 : Vec F S1024x128 .f32) :
    k0_pay1 (k0_pay10 (k0_pay5 x w) (k0_pay9 (k0_pay5 x w) k0_pay6 v0 (k0_pay7 x w k0) (k0_pay8 x w k0) k1 v1) k2 v2) v3
        (k0_pay11 (k0_pay5 x w)) (k0_pay12 k3) (k0_pay13 (k0_pay5 x w) k3) (constant S1024x1024 .f32 0x00000000#32)
      = bodyOut x w k0 v0 k1 v1 k2 v2 k3 v3 := rfl

end Cert.KernelIdeal.Body

end
-- ==== Proof.LibWholeStoreReads.lean ====
/-
  A load that follows one store of the whole buffer.

  When the only store so far wrote a buffer whole (zero offsets, full extent), a load through ANY rectangle of the
  buffer reads the stored block at that rectangle's indices: `readCov_one_whole`.  This is what a body meets that fills
  a scratch buffer once and then reads it back in slices (a run of rows, a window of columns) within the same grid
  point.  `hz2` / `hz3`: the literal zero offsets of rank 2 and 3 are the zero function, the form the whole-rectangle
  lemmas ask for.  General in the shape, the element type and the values.
-/
import Idealize.ShloMosaic.Lib.Pipeline.Value

namespace Cert.WholeStoreReads

open Idealize.ShloMosaic Idealize.SL.Sem

theorem hz2 : (![0, 0] : Fin 2 → ℕ) = fun _ => 0 := by funext a; fin_cases a <;> rfl
theorem hz3 : (![0, 0, 0] : Fin 3 → ℕ) = fun _ => 0 := by funext a; fin_cases a <;> rfl

/-- A load through any rectangle, after ONE store of the whole buffer, reads the stored block at the rectangle. -/
theorem readCov_one_whole {sig : RefSig} {κ : Kind} {sp : Space} {S : Shape} {e : EltTy} {Val : EltTy → Type}
    [∀ e, Nonempty (Val e)] (v : View sig κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h]

end Cert.WholeStoreReads
-- ==== Proof.Pieces.lean ====
import proofs.«158320_j10204842295864_2_alg».proof.Proof.Gen.KernelIdeal.Frame
import proofs.«158320_j10204842295864_2_alg».proof.Proof.Body
import Idealize.ShloMosaic.Lib.Pipeline.Value
import proofs.«158320_j10204842295864_2_alg».proof.Proof.LibWholeStoreReads

set_option maxRecDepth 16384

noncomputable section

/-!
  What each control case of the body leaves behind, as values.

  At the first query tile of a batch (case A) the body stores the whole key scratch and the whole value scratch — the
  context block projected by the key, resp. value, weights — and every later load of a run of 1024 rows of a scratch
  reads those rows of what was just stored.  At the other tiles (case B) it stores nothing into the scratches and the
  same loads read rows of what the previous grid point left.  In both cases the output block is one whole store of the
  body's result on the query tile, the query weights and the four runs of rows.
-/

namespace Cert.KernelIdeal.Pieces

open Cert.KernelIdeal Cert.KernelIdeal.Gen Cert.KernelIdeal.Body Cert.WholeStoreReads
open Idealize.ShloMosaic Idealize.ShloMosaic.TcCoe Idealize.ShloMosaic.Tactic
open Idealize.SL Idealize.SL.Sem

variable {F : FTy → Type} [FloatOps F]

/-- Case A leaves the context block projected by the key weights in the key scratch. -/
theorem sout_A_0 (c : Dev nD) (i : grid0.Coords) (arg2 : Memref sig .tc .vmem S1x1024x128 .f32) (harg2 : arg2.IsWhole) (arg3 : Memref sig .tc .vmem S1x4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1024x128 .f32) (harg7 : arg7.IsWhole) (arg8 : Memref sig .tc .vmem S4096x128 .f32) (harg8 : arg8.IsWhole) (arg9 : Memref sig .tc .vmem S4096x128 .f32) (harg9 : arg9.IsWhole) (hc0 : cond0_0 i) (x0 : Vec F S1x1024x128 .f32) (x1 : Vec F S1x4096x128 .f32) (x2 : Vec F S128x128 .f32) (x3 : Vec F S128x128 .f32) (x4 : Vec F S128x128 .f32) :
    sout0_A_0 c i arg2 harg2 arg3 harg3 arg4 harg4 arg5 harg5 arg6 harg6 arg7 harg7 arg8 harg8 arg9 harg9 hc0 x0 x1 x2 x3 x4 = k0_pay3 x1 x3 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg3.read_unread, harg5.read_unread, View.ld_unit_zero (S := S1x4096x128) hz3,
    View.ld_unit_zero (S := S128x128) hz2]

/-- Case A leaves the context block projected by the value weights in the value scratch. -/
theorem sout_A_1 (c : Dev nD) (i : grid0.Coords) (arg2 : Memref sig .tc .vmem S1x1024x128 .f32) (harg2 : arg2.IsWhole) (arg3 : Memref sig .tc .vmem S1x4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1024x128 .f32) (harg7 : arg7.IsWhole) (arg8 : Memref sig .tc .vmem S4096x128 .f32) (harg8 : arg8.IsWhole) (arg9 : Memref sig .tc .vmem S4096x128 .f32) (harg9 : arg9.IsWhole) (hc0 : cond0_0 i) (x0 : Vec F S1x1024x128 .f32) (x1 : Vec F S1x4096x128 .f32) (x2 : Vec F S128x128 .f32) (x3 : Vec F S128x128 .f32) (x4 : Vec F S128x128 .f32) :
    sout0_A_1 c i arg2 harg2 arg3 harg3 arg4 harg4 arg5 harg5 arg6 harg6 arg7 harg7 arg8 harg8 arg9 harg9 hc0 x0 x1 x2 x3 x4 = k0_pay4 x1 x4 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg3.read_unread, harg6.read_unread, View.ld_unit_zero (S := S1x4096x128) hz3,
    View.ld_unit_zero (S := S128x128) hz2]

/-- Case A's output block: the body's result over rows of the keys and values it has just stored. -/
theorem out_A_5 (c : Dev nD) (i : grid0.Coords) (arg2 : Memref sig .tc .vmem S1x1024x128 .f32) (harg2 : arg2.IsWhole) (arg3 : Memref sig .tc .vmem S1x4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1024x128 .f32) (harg7 : arg7.IsWhole) (arg8 : Memref sig .tc .vmem S4096x128 .f32) (harg8 : arg8.IsWhole) (arg9 : Memref sig .tc .vmem S4096x128 .f32) (harg9 : arg9.IsWhole) (hc0 : cond0_0 i) (x0 : Vec F S1x1024x128 .f32) (x1 : Vec F S1x4096x128 .f32) (x2 : Vec F S128x128 .f32) (x3 : Vec F S128x128 .f32) (x4 : Vec F S128x128 .f32) :
    out0_A_5 c i arg2 harg2 arg3 harg3 arg4 harg4 arg5 harg5 arg6 harg6 arg7 harg7 arg8 harg8 arg9 harg9 hc0 x0 x1 x2 x3 x4
      = bodyOut x0 x2 (View.ld (k0_pay3 x1 x3) (Rect.unit (s := S4096x128) ![0, 0] S1024x128.size Facts₀.inb_S4096x128_S1024x128_0_0)) (View.ld (k0_pay4 x1 x4) (Rect.unit (s := S4096x128) ![0, 0] S1024x128.size Facts₀.inb_S4096x128_S1024x128_0_0)) (View.ld (k0_pay3 x1 x3) (Rect.unit (s := S4096x128) ![1024, 0] S1024x128.size Facts₀.inb_S4096x128_S1024x128_1024_0)) (View.ld (k0_pay4 x1 x4) (Rect.unit (s := S4096x128) ![1024, 0] S1024x128.size Facts₀.inb_S4096x128_S1024x128_1024_0)) (View.ld (k0_pay3 x1 x3) (Rect.unit (s := S4096x128) ![2048, 0] S1024x128.size Facts₀.inb_S4096x128_S1024x128_2048_0)) (View.ld (k0_pay4 x1 x4) (Rect.unit (s := S4096x128) ![2048, 0] S1024x128.size Facts₀.inb_S4096x128_S1024x128_2048_0)) (View.ld (k0_pay3 x1 x3) (Rect.unit (s := S4096x128) ![3072, 0] S1024x128.size Facts₀.inb_S4096x128_S1024x128_3072_0)) (View.ld (k0_pay4 x1 x4) (Rect.unit (s := S4096x128) ![3072, 0] S1024x128.size Facts₀.inb_S4096x128_S1024x128_3072_0)) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz3]
  simp only [View.readAt_eq_ld, harg2.read_unread, harg3.read_unread, harg4.read_unread, harg5.read_unread,
    harg6.read_unread, View.ld_unit_zero (S := S1x4096x128) hz3, View.ld_unit_zero (S := S1x1024x128) hz3,
    View.ld_unit_zero (S := S128x128) hz2, readCov_one_whole (S := S4096x128) _ hz2]
  exact out_eq _ _ _ _ _ _ _ _ _ _

/-- Case B's output block: the body's result over rows of the keys and values the previous point left. -/
theorem out_B_5 (c : Dev nD) (i : grid0.Coords) (arg2 : Memref sig .tc .vmem S1x1024x128 .f32) (harg2 : arg2.IsWhole) (arg3 : Memref sig .tc .vmem S1x4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1024x128 .f32) (harg7 : arg7.IsWhole) (arg8 : Memref sig .tc .vmem S4096x128 .f32) (harg8 : arg8.IsWhole) (arg9 : Memref sig .tc .vmem S4096x128 .f32) (harg9 : arg9.IsWhole) (hc0 : ¬cond0_0 i) (x0 : Vec F S1x1024x128 .f32) (x1 : Vec F S1x4096x128 .f32) (x2 : Vec F S128x128 .f32) (x3 : Vec F S128x128 .f32) (x4 : Vec F S128x128 .f32) (xs0 xs1 : Vec F S4096x128 .f32) :
    out0_B_5 c i arg2 harg2 arg3 harg3 arg4 harg4 arg5 harg5 arg6 harg6 arg7 harg7 arg8 harg8 arg9 harg9 hc0 x0 x1 x2 x3 x4 xs0 xs1
      = bodyOut x0 x2 (View.ld xs0 (Rect.unit (s := S4096x128) ![0, 0] S1024x128.size Facts₀.inb_S4096x128_S1024x128_0_0)) (View.ld xs1 (Rect.unit (s := S4096x128) ![0, 0] S1024x128.size Facts₀.inb_S4096x128_S1024x128_0_0)) (View.ld xs0 (Rect.unit (s := S4096x128) ![1024, 0] S1024x128.size Facts₀.inb_S4096x128_S1024x128_1024_0)) (View.ld xs1 (Rect.unit (s := S4096x128) ![1024, 0] S1024x128.size Facts₀.inb_S4096x128_S1024x128_1024_0)) (View.ld xs0 (Rect.unit (s := S4096x128) ![2048, 0] S1024x128.size Facts₀.inb_S4096x128_S1024x128_2048_0)) (View.ld xs1 (Rect.unit (s := S4096x128) ![2048, 0] S1024x128.size Facts₀.inb_S4096x128_S1024x128_2048_0)) (View.ld xs0 (Rect.unit (s := S4096x128) ![3072, 0] S1024x128.size Facts₀.inb_S4096x128_S1024x128_3072_0)) (View.ld xs1 (Rect.unit (s := S4096x128) ![3072, 0] S1024x128.size Facts₀.inb_S4096x128_S1024x128_3072_0)) := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  rw [View.canon_unit_zero hz3]
  simp only [View.readAt_eq_ld, harg2.read_unread, harg4.read_unread, harg8.read_unread, harg9.read_unread,
    View.ld_unit_zero (S := S1x1024x128) hz3, View.ld_unit_zero (S := S128x128) hz2]
  exact out_eq _ _ _ _ _ _ _ _ _ _

end Cert.KernelIdeal.Pieces

end
-- ==== Proof.LibRealEntries.lean ====
/-
  Extended reals that are real numbers, and two laws of sums over them.

  On the extended reals x - x = 0 holds for a real x and fails at the infinities, so an evaluation that splits a
  number into a high part and a low part spelt x - x agrees with the plain one only on reals.
  * `IsReal x`: x is (the image of) a real number; kept by 0, +, ·, finite sums and contractions; `IsReal.sub_self`.
  * `split3_sum`: the three-term split contraction hi(a)·hi(b) + hi(a)·lo(b) + lo(a)·hi(b), lo(x) = x - x, over any
    finite index type, is the plain contraction ∑ a·b when all entries are reals (a product with zero is zero on all
    extended reals, a sum of zeros is zero).
  * `sum_four_runs`: a sum over 4096 positions is zero plus its four consecutive runs of 1024, added in order, in any
    commutative additive monoid (`sum_range_four_runs`: the same over the naturals below 4096).
  * `top_word`, `real_of_abs_lt_top`: the f32 word 0x7F800000 denotes +inf, and max x (-x) < +inf (the comparison a
    finiteness precondition prints, as a one-bit word equal to 1) makes x a real.
-/
import Idealize.ShloMosaic.PureOps.Ideal

noncomputable section

open scoped BigOperators

namespace Cert.RealEntries

open Idealize.ShloMosaic

/-! ## Real entries -/

/-- An extended real that is a real number. -/
def IsReal (x : EReal) : Prop := ∃ r : ℝ, x = (r : EReal)

theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- For a real x, x - x = 0 (on the extended reals this fails at the infinities). -/
theorem IsReal.sub_self {x : EReal} (hx : IsReal x) : x - x = 0 := by
  obtain ⟨a, rfl⟩ := hx
  rw [← EReal.coe_sub, _root_.sub_self, EReal.coe_zero]

theorem IsReal.sum {ι : Type*} (s : Finset ι) (f : ι → EReal) (h : ∀ k ∈ s, IsReal (f k)) : IsReal (∑ k ∈ s, f k) := by
  classical
  revert h
  refine Finset.induction_on s ?_ ?_
  · intro _; rw [Finset.sum_empty]; exact IsReal.zero
  · intro a s ha ih h
    rw [Finset.sum_insert ha]
    exact (h a (Finset.mem_insert_self a s)).add (ih fun k hk => h k (Finset.mem_insert_of_mem hk))

/-- A contraction of two families of reals is a real. -/
theorem IsReal.dot {K : Type*} [Fintype K] (a b : K → EReal) (ha : ∀ k, IsReal (a k)) (hb : ∀ k, IsReal (b k)) :
    IsReal (∑ k, a k * b k) :=
  IsReal.sum _ _ fun k _ => (ha k).mul (hb k)

/-! ## The split product collapses on reals -/

/-- hi(a)·hi(b) + hi(a)·lo(b) + lo(a)·hi(b) with lo(x) = x - x is the plain contraction when all entries are reals. -/
theorem split3_sum {K : Type*} [Fintype K] (a b : K → EReal) (ha : ∀ k, IsReal (a k)) (hb : ∀ k, IsReal (b k)) :
    (∑ k, a k * b k + ∑ k, a k * (b k - b k)) + ∑ k, (a k - a k) * b k = ∑ k, a k * b k := by
  have ea : ∀ k, a k - a k = 0 := fun k => (ha k).sub_self
  have eb : ∀ k, b k - b k = 0 := fun k => (hb k).sub_self
  simp only [ea, eb, mul_zero, zero_mul, Finset.sum_const_zero, add_zero]

/-! ## Four runs -/

/-- A sum over the first 4096 naturals, cut into its four runs of 1024. -/
theorem sum_range_four_runs {M : Type*} [AddCommMonoid M] (f : ℕ → M) :
    ∑ t ∈ Finset.range 4096, f t
      = ((∑ j ∈ Finset.range 1024, f j + ∑ j ∈ Finset.range 1024, f (1024 + j))
          + ∑ j ∈ Finset.range 1024, f (2048 + j)) + ∑ j ∈ Finset.range 1024, f (3072 + j) := by
  rw [show (4096 : ℕ) = 1024 + 1024 + 1024 + 1024 from rfl, Finset.sum_range_add, Finset.sum_range_add,
    Finset.sum_range_add]

/-- A sum over 4096 positions is zero plus its four consecutive runs of 1024 positions, added in order. -/
theorem sum_four_runs {M : Type*} [AddCommMonoid M] (f : Fin 4096 → M) :
    ∑ t, f t = ((((0 : M) + ∑ j : Fin 1024, f ⟨0 + j.val, by omega⟩) + ∑ j : Fin 1024, f ⟨1024 + j.val, by omega⟩)
        + ∑ j : Fin 1024, f ⟨2048 + j.val, by omega⟩) + ∑ j : Fin 1024, f ⟨3072 + j.val, by omega⟩ := by
  let g : ℕ → M := fun n => if h : n < 4096 then f ⟨n, h⟩ else 0
  have hg : ∀ (o : ℕ) (j : Fin 1024) (h : o + j.val < 4096), f ⟨o + j.val, h⟩ = g (o + j.val) := fun o j h => by
    show _ = dite _ _ _; rw [dif_pos h]
  have e0 : ∑ t, f t = ∑ t ∈ Finset.range 4096, g t := by
    rw [← Fin.sum_univ_eq_sum_range g 4096]
    refine Finset.sum_congr rfl fun t _ => ?_
    show _ = dite _ _ _; rw [dif_pos t.isLt]
  have er : ∀ (o : ℕ) (ho : o + 1024 ≤ 4096),
      ∑ j : Fin 1024, f ⟨o + j.val, by omega⟩ = ∑ j ∈ Finset.range 1024, g (o + j) := fun o ho => by
    rw [← Fin.sum_univ_eq_sum_range (fun n => g (o + n)) 1024]
    exact Finset.sum_congr rfl fun j _ => hg o j (by omega)
  rw [e0, sum_range_four_runs g, er 0 (by omega), er 1024 (by omega), er 2048 (by omega), er 3072 (by omega), zero_add]
  simp only [Nat.zero_add]

/-! ## The finiteness test -/

/-- The f32 word 0x7F800000 denotes +inf. -/
theorem top_word : Ideal.ofBits .f32 0x7F800000#32 = ⊤ := by simp [Ideal.ofBits, Ideal.ieee]

/-- |x| < +inf makes x a real. -/
theorem real_of_abs_lt_top (x : EReal) (h : Ideal.cmp .olt (max x (-x)) ⊤ = 1#1) : IsReal x := by
  induction x using EReal.rec
  · exfalso; revert h; simp [Ideal.cmp]
  · exact ⟨_, rfl⟩
  · exfalso; revert h; simp [Ideal.cmp]

end Cert.RealEntries

end
-- ==== Proof.Spec.lean ====
/-
  The attention chain without softmax, as one function of the argument arrays over the extended reals.

  With q = X·Wqᵀ, k = C·Wkᵀ, v = C·Wvᵀ (each entry a sum over the 128 features) the result at (b, s, e) is the sum over
  the 4096 key positions t of ((∑ d, q (b,s,d) · k (b,t,d)) · c) · v (b,t,e), c the scale.  A linear layer of arrays
  of reals holds reals: sums and products of reals are reals, which carries finiteness from the inputs to the
  projections and the scores.
-/
import Idealize.ShloMosaic.PureOps.Ideal
import Idealize.ShloMosaic.Lib.ValueIdx
import proofs.«158320_j10204842295864_2_alg».proof.Proof.LibRealEntries

noncomputable section

open scoped BigOperators

namespace Cert.Attn

open Idealize.ShloMosaic Idealize.ShloMosaic.ValueIdx Cert.RealEntries

/-! ## The specification -/

abbrev SB : Shape := ⟨3, ![4, 4096, 128]⟩
abbrev SW : Shape := ⟨2, ![128, 128]⟩

/-- A linear layer without bias, y = x·Wᵀ, at (b, s, e). -/
def linear (x : SB.Idx → EReal) (w : SW.Idx → EReal) (b : Fin 4) (s : Fin 4096) (e : Fin 128) : EReal :=
  ∑ d : Fin 128, x (ix3 b s d) * w (ix2 e d)

/-- The scaled score of query position s against key position t in batch b. -/
def score (c : EReal) (ctx X : SB.Idx → EReal) (Wq Wk : SW.Idx → EReal) (b : Fin 4) (s t : Fin 4096) : EReal :=
  (∑ d : Fin 128, linear X Wq b s d * linear ctx Wk b t d) * c

/-- The attention chain without softmax: scores times values, summed over the key positions. -/
def attn (c : EReal) (ctx X : SB.Idx → EReal) (Wq Wk Wv : SW.Idx → EReal) : SB.Idx → EReal := fun i =>
  ∑ t : Fin 4096, score c ctx X Wq Wk (i 0) (i 1) t * linear ctx Wv (i 0) t (i 2)

theorem linear_real {x : SB.Idx → EReal} {w : SW.Idx → EReal} (hx : ∀ i, IsReal (x i)) (hw : ∀ i, IsReal (w i))
    (b : Fin 4) (s : Fin 4096) (e : Fin 128) : IsReal (linear x w b s e) :=
  IsReal.dot _ _ (fun _ => hx _) (fun _ => hw _)

end Cert.Attn

end
-- ==== Proof.LibMatmulRows.lean ====
/-
  A matrix product that contracts the LAST axis of both operands, from the zero accumulator, read at an entry.

  With the left operand [M, K] and the right operand [N, K], both contracted on their second axis, the result
  [M, N] at (p, r) is the sum over k of left (p, k) times right (r, k): row p of the left operand against
  row r of the right one. Stated for any dimension record that lists exactly those axes, at the exact
  instance (extended reals), general in the extents and in the operands' float formats.
-/
import Idealize.ShloMosaic.Lib.ValueIdx
import Idealize.ShloMosaic.PureOps.Ideal.Laws

namespace Cert.MatmulRows

open Idealize.ShloMosaic Idealize.ShloMosaic.ValueIdx

/-- Rows against rows: `matmul` of [M, K] and [N, K] contracting axis 1 of each, accumulator zero, at (p, r). -/
theorem matmul_rows_apply {M N K : ℕ} {φ₁ φ₂ : FTy}
    (d : DotDims ⟨2, ![M, K]⟩ ⟨2, ![N, K]⟩ ⟨2, ![M, N]⟩) (prec : Option ContractPrecision)
    (hlc : d.lhsContracting = [1]) (hrc : d.rhsContracting = [1])
    (hln : d.lhsNonContracting = [0]) (hrn : d.rhsNonContracting = [0])
    (hlb : d.lhsBatch = []) (hrb : d.rhsBatch = [])
    (lhs : FVec Ideal ⟨2, ![M, K]⟩ φ₁) (rhs : FVec Ideal ⟨2, ![N, K]⟩ φ₂) (p : Fin M) (r : Fin N) :
    FloatOps.matmul d prec lhs rhs (constant (F := Ideal) ⟨2, ![M, N]⟩ .f32 0x00000000#32) (ix2 p r)
      = ∑ k : Fin K, lhs (ix2 p k) * rhs (ix2 r k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p r) ((contrEquiv1 d K hr hs).symm k) = ix2 p k := funext fun a => Fin.ext (by
    match a with
    | ⟨0, h0⟩ =>
      subst hd
      unfold DotDims.lhsIdx
      rw [dif_neg List.not_mem_nil,
        dif_pos (show (⟨0, h0⟩ : Fin (⟨2, ![M, K]⟩ : Shape).rank) ∈ [0] from List.mem_singleton.mpr (Fin.ext rfl))]
      rfl
    | ⟨1, _⟩ => exact (d.lhsIdx_val_of_single hlc _ _).trans hk)
  have er : d.rhsIdx (ix2 p r) ((contrEquiv1 d K hr hs).symm k) = ix2 r k := funext fun a => Fin.ext (by
    match a with
    | ⟨0, h0⟩ =>
      subst hd
      unfold DotDims.rhsIdx
      rw [dif_neg List.not_mem_nil,
        dif_pos (show (⟨0, h0⟩ : Fin (⟨2, ![N, K]⟩ : Shape).rank) ∈ [0] from List.mem_singleton.mpr (Fin.ext rfl))]
      rfl
    | ⟨1, _⟩ => exact (d.rhsIdx_val_of_single hrc _ _).trans hk)
  rw [el, er]

end Cert.MatmulRows
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibRectReads.lean ====
/-
  A unit-stride rectangle of a matrix, read at coordinates.

  A rectangle of a matrix [M, N] that takes m consecutive rows from row o and all N columns places its local
  entry (i, j) at entry (o + i, j) of the matrix; one that takes all M rows and n consecutive columns from
  column o places its local entry (i, j) at (i, o + j). These are the two forms a body meets when it loads a
  block of rows of an operand, or loads and stores a block of columns of its output: a load through the
  rectangle (`View.ld X r`, the contents at the rectangle's indices) and the rectangle's embedding
  (`r.emb`) both go through `r.idx`, which is what is read here. General in the extents and the offset.
-/
import Idealize.ShloMosaic.Lib.ValueIdx
import Idealize.ShloMosaic.Lib.Pipeline.FrameBody

namespace Cert.RectReads

open Idealize.ShloMosaic Idealize.ShloMosaic.ValueIdx

/-- A block of m rows from row o, all columns: local (i, j) is the matrix's (o + i, j). -/
theorem idx_rowBlock {M N m : ℕ} (o : ℕ)
    (inb : ∀ a, (![o, 0] : Fin 2 → ℕ) a + (![m, N] : Fin 2 → ℕ) a ≤ (⟨2, ![M, N]⟩ : Shape).size a)
    (i : Fin m) (j : Fin N) (h : o + i.val < M) :
    (Rect.unit (s := ⟨2, ![M, N]⟩) ![o, 0] ![m, N] inb).idx (ix2 i j) = ix2 ⟨o + i.val, h⟩ j := by
  funext a
  apply Fin.ext
  match a with
  | ⟨0, _⟩ => show o + 1 * i.val = o + i.val; rw [Nat.one_mul]
  | ⟨1, _⟩ => show 0 + 1 * j.val = j.val; rw [Nat.one_mul, Nat.zero_add]

/-- A block of n columns from column o, all rows: local (i, j) is the matrix's (i, o + j). -/
theorem idx_colBlock {M N n : ℕ} (o : ℕ)
    (inb : ∀ a, (![0, o] : Fin 2 → ℕ) a + (![M, n] : Fin 2 → ℕ) a ≤ (⟨2, ![M, N]⟩ : Shape).size a)
    (i : Fin M) (j : Fin n) (h : o + j.val < N) :
    (Rect.unit (s := ⟨2, ![M, N]⟩) ![0, o] ![M, n] inb).idx (ix2 i j) = ix2 i ⟨o + j.val, h⟩ := by
  funext a
  apply Fin.ext
  match a with
  | ⟨0, _⟩ => show 0 + 1 * i.val = i.val; rw [Nat.one_mul, Nat.zero_add]
  | ⟨1, _⟩ => show o + 1 * j.val = o + j.val; rw [Nat.one_mul]

/-- A load of m rows from row o of a matrix, at (i, j): the matrix's entry (o + i, j). -/
theorem ld_rowBlock {α : Type} {M N m : ℕ} (X : (⟨2, ![M, N]⟩ : Shape).Idx → α) (o : ℕ)
    (inb : ∀ a, (![o, 0] : Fin 2 → ℕ) a + (![m, N] : Fin 2 → ℕ) a ≤ (⟨2, ![M, N]⟩ : Shape).size a)
    (i : Fin m) (j : Fin N) (h : o + i.val < M) :
    X ((Rect.unit (s := ⟨2, ![M, N]⟩) ![o, 0] ![m, N] inb).idx (ix2 i j)) = X (ix2 ⟨o + i.val, h⟩ j) :=
  congrArg X (idx_rowBlock o inb i j h)

/-- A load of n columns from column o of a matrix, at (i, j): the matrix's entry (i, o + j). -/
theorem ld_colBlock {α : Type} {M N n : ℕ} (X : (⟨2, ![M, N]⟩ : Shape).Idx → α) (o : ℕ)
    (inb : ∀ a, (![0, o] : Fin 2 → ℕ) a + (![M, n] : Fin 2 → ℕ) a ≤ (⟨2, ![M, N]⟩ : Shape).size a)
    (i : Fin M) (j : Fin n) (h : o + j.val < N) :
    X ((Rect.unit (s := ⟨2, ![M, N]⟩) ![0, o] ![M, n] inb).idx (ix2 i j)) = X (ix2 i ⟨o + j.val, h⟩) :=
  congrArg X (idx_colBlock o inb i j h)

end Cert.RectReads
-- ==== Proof.BodyValue.lean ====
/-
  The body's functions at the exact values, read at an index, on arrays of real numbers.

  On reals each three-term split product is the plain product (its two low-part terms vanish), so
  * a projection of a block [1, n, 128] by weights [128, 128] reads, at (r, e), ∑ d, x (0, r, d) · w (e, d);
  * one run of 1024 key positions reads, at (p, e), ∑ j, ((∑ d, q (p, d) · k (j, d)) · c) · v (j, e) — the scores
    are reals because the queries, the keys and the scale are, so the second split product collapses too;
  * the body's result at (0, p, e) is zero plus the four runs' contributions, added in order.
-/
import proofs.«158320_j10204842295864_2_alg».proof.Proof.Body
import proofs.«158320_j10204842295864_2_alg».proof.Proof.Spec
import proofs.«158320_j10204842295864_2_alg».proof.Proof.LibMatmulRows
import proofs.«158320_j10204842295864_2_alg».proof.Proof.LibMatmulPlain
import proofs.«158320_j10204842295864_2_alg».proof.Proof.LibRectReads
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Body Cert.Attn Cert.RealEntries Idealize.ShloMosaic Idealize.ShloMosaic.ValueIdx

/-- The scale, the f32 nearest 128^(-1/2), as the extended real its word denotes. -/
abbrev scale : EReal := Ideal.ofBits .f32 0x3DB504F3#32

/-- The scale is a real number: its exponent field is neither all zeros nor all ones. -/
theorem scale_real : IsReal scale := by
  show IsReal (Ideal.ieee 8 23 (0x3DB504F3#32 : BitVec 32))
  unfold Ideal.ieee
  dsimp only
  rw [if_neg (by decide), if_neg (by decide)]
  exact ⟨_, rfl⟩

/-- A split product of rows against rows, on reals, at (p, r). -/
theorem split3_rows_apply {M N K : ℕ} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (a : FVec Ideal ⟨2, ![M, K]⟩ .f32) (b : FVec Ideal ⟨2, ![N, K]⟩ .f32)
    (ha : ∀ i, IsReal (a i)) (hb : ∀ i, IsReal (b i)) (p : Fin M) (r : Fin N) :
    split3 (F := Ideal) d a b (ix2 p r) = ∑ k : Fin K, a (ix2 p k) * b (ix2 r k) := by
  unfold split3 matmul
  rw [addf_apply, addf_apply, Cert.MatmulRows.matmul_rows_apply d none hlc hrc hln hrn hlb hrb,
    Cert.MatmulRows.matmul_rows_apply d none hlc hrc hln hrn hlb hrb,
    Cert.MatmulRows.matmul_rows_apply d none hlc hrc hln hrn hlb hrb]
  simp only [truncf_apply, subf_apply]
  exact split3_sum (fun k => a (ix2 p k)) (fun k => b (ix2 r k)) (fun _ => ha _) (fun _ => hb _)

/-- A split product of rows against columns, on reals, at (p, o). -/
theorem split3_plain_apply {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (a : FVec Ideal ⟨2, ![M, K]⟩ .f32) (b : FVec Ideal ⟨2, ![K, N]⟩ .f32)
    (ha : ∀ i, IsReal (a i)) (hb : ∀ i, IsReal (b i)) (p : Fin M) (o : Fin N) :
    split3 (F := Ideal) d a b (ix2 p o) = ∑ k : Fin K, a (ix2 p k) * b (ix2 k o) := by
  unfold split3 matmul
  rw [addf_apply, addf_apply, Cert.MatmulPlain.matmul_plain_apply d hlc hrc hln hrn hlb hrb,
    Cert.MatmulPlain.matmul_plain_apply d hlc hrc hln hrn hlb hrb,
    Cert.MatmulPlain.matmul_plain_apply d hlc hrc hln hrn hlb hrb]
  simp only [truncf_apply, subf_apply]
  exact split3_sum (fun k => a (ix2 p k)) (fun k => b (ix2 k o)) (fun _ => ha _) (fun _ => hb _)

/-- A batch's context block projected by a weight matrix, at (r, e). -/
theorem proj_apply (x : Vec Ideal S1x4096x128 .f32) (w : Vec Ideal S128x128 .f32)
    (hx : ∀ i, IsReal (x i)) (hw : ∀ i, IsReal (w i)) (r : Fin 4096) (e : Fin 128) :
    proj x w (ix2 r e) = ∑ d : Fin 128, x (ix3 (0 : Fin 1) r d) * w (ix2 e d) := by
  unfold proj
  rw [split3_rows_apply _ rfl rfl rfl rfl rfl rfl (shapeCast S4096x128 x Facts₀.shapeCasts_S1x4096x128_S4096x128) w
    (fun i => hx _) hw]
  exact Finset.sum_congr rfl fun d _ => by rw [shapeCast_1ab_ab_apply]

/-- A query tile projected by the query weights, at (p, e). -/
theorem queries_apply (x : Vec Ideal S1x1024x128 .f32) (w : Vec Ideal S128x128 .f32)
    (hx : ∀ i, IsReal (x i)) (hw : ∀ i, IsReal (w i)) (p : Fin 1024) (e : Fin 128) :
    queries x w (ix2 p e) = ∑ d : Fin 128, x (ix3 (0 : Fin 1) p d) * w (ix2 e d) := by
  unfold queries
  rw [split3_rows_apply _ rfl rfl rfl rfl rfl rfl (shapeCast S1024x128 x Facts₀.shapeCasts_S1x1024x128_S1024x128) w
    (fun i => hx _) hw]
  exact Finset.sum_congr rfl fun d _ => by rw [shapeCast_1ab_ab_apply]

theorem queries_real (x : Vec Ideal S1x1024x128 .f32) (w : Vec Ideal S128x128 .f32)
    (hx : ∀ i, IsReal (x i)) (hw : ∀ i, IsReal (w i)) (i : S1024x128.Idx) : IsReal (queries x w i) := by
  obtain ⟨p, e, rfl⟩ : ∃ (p : Fin 1024) (e : Fin 128), i = ix2 p e := ⟨i 0, i 1, eq_ix2 i⟩
  rw [queries_apply x w hx hw]
  exact IsReal.dot _ _ (fun _ => hx _) (fun _ => hw _)

/-- The scaled scores of a query tile against one run of keys, at (p, j), and that they are reals. -/
theorem scores_apply (q kc : FVec Ideal S1024x128 .f32) (hq : ∀ i, IsReal (q i)) (hk : ∀ i, IsReal (kc i))
    (p j : Fin 1024) :
    mulf (split3 dot_S1024x128_S1024x128_S1024x1024_1_1_0_0_n_n q kc)
        (broadcast S1024x1024 (Scalar.ofBits (F := Ideal) .f32 0x3DB504F3#32)) (ix2 p j)
      = (∑ d : Fin 128, q (ix2 p d) * kc (ix2 j d)) * scale := by
  rw [mulf_apply, split3_rows_apply _ rfl rfl rfl rfl rfl rfl q kc hq hk]
  rfl

theorem scores_real (q kc : FVec Ideal S1024x128 .f32) (hq : ∀ i, IsReal (q i)) (hk : ∀ i, IsReal (kc i))
    (i : S1024x1024.Idx) :
    IsReal (mulf (split3 dot_S1024x128_S1024x128_S1024x1024_1_1_0_0_n_n q kc)
        (broadcast S1024x1024 (Scalar.ofBits (F := Ideal) .f32 0x3DB504F3#32)) i) := by
  obtain ⟨p, j, rfl⟩ : ∃ (p j : Fin 1024), i = ix2 p j := ⟨i 0, i 1, eq_ix2 i⟩
  rw [scores_apply q kc hq hk]
  exact (IsReal.dot _ _ (fun _ => hq _) (fun _ => hk _)).mul scale_real

/-- One run of 1024 key positions, at (p, e). -/
theorem chunk_apply (q kc vc : FVec Ideal S1024x128 .f32) (hq : ∀ i, IsReal (q i)) (hk : ∀ i, IsReal (kc i))
    (hv : ∀ i, IsReal (vc i)) (p : Fin 1024) (e : Fin 128) :
    chunk q kc vc (ix2 p e)
      = ∑ j : Fin 1024, ((∑ d : Fin 128, q (ix2 p d) * kc (ix2 j d)) * scale) * vc (ix2 j e) := by
  unfold chunk
  rw [split3_plain_apply _ rfl rfl rfl rfl rfl rfl _ vc (scores_real q kc hq hk) hv]
  exact Finset.sum_congr rfl fun j _ => by rw [scores_apply q kc hq hk]

/-- The body's result at (0, p, e): zero plus the four runs' contributions, in order. -/
theorem bodyOut_apply (x : Vec Ideal S1x1024x128 .f32) (w : Vec Ideal S128x128 .f32)
    (k0 v0 k1 v1 k2 v2 k3 v3 : Vec Ideal S1024x128 .f32)
    (hx : ∀ i, IsReal (x i)) (hw : ∀ i, IsReal (w i))
    (hk0 : ∀ i, IsReal (k0 i)) (hv0 : ∀ i, IsReal (v0 i)) (hk1 : ∀ i, IsReal (k1 i)) (hv1 : ∀ i, IsReal (v1 i))
    (hk2 : ∀ i, IsReal (k2 i)) (hv2 : ∀ i, IsReal (v2 i)) (hk3 : ∀ i, IsReal (k3 i)) (hv3 : ∀ i, IsReal (v3 i))
    (u : Fin 1) (p : Fin 1024) (e : Fin 128) :
    bodyOut x w k0 v0 k1 v1 k2 v2 k3 v3 (ix3 u p e)
      = ((((0 : EReal)
          + ∑ j : Fin 1024, ((∑ d : Fin 128, queries x w (ix2 p d) * k0 (ix2 j d)) * scale) * v0 (ix2 j e))
          + ∑ j : Fin 1024, ((∑ d : Fin 128, queries x w (ix2 p d) * k1 (ix2 j d)) * scale) * v1 (ix2 j e))
          + ∑ j : Fin 1024, ((∑ d : Fin 128, queries x w (ix2 p d) * k2 (ix2 j d)) * scale) * v2 (ix2 j e))
          + ∑ j : Fin 1024, ((∑ d : Fin 128, queries x w (ix2 p d) * k3 (ix2 j d)) * scale) * v3 (ix2 j e) := by
  have hq := queries_real x w hx hw
  unfold bodyOut
  rw [shapeCast_ab_1ab_apply, addf_apply, addf_apply, addf_apply, addf_apply, broadcast_apply,
    chunk_apply _ k0 v0 hq hk0 hv0, chunk_apply _ k1 v1 hq hk1 hv1, chunk_apply _ k2 v2 hq hk2 hv2,
    chunk_apply _ k3 v3 hq hk3 hv3]
  show ((((Ideal.ofBits .f32 0x00000000#32 + _) + _) + _) + _) = _
  rw [Ideal.ofBits_zero_f32]

/-- When the four runs' keys and values are the four consecutive blocks of 1024 rows of ONE key array and ONE value
    array [4096, 128], the body's result at (0, p, e) is one sum over all 4096 key positions. -/
theorem bodyOut_rows_apply (x : Vec Ideal S1x1024x128 .f32) (w : Vec Ideal S128x128 .f32)
    (K V : Vec Ideal S4096x128 .f32)
    (hx : ∀ i, IsReal (x i)) (hw : ∀ i, IsReal (w i)) (hK : ∀ i, IsReal (K i)) (hV : ∀ i, IsReal (V i))
    (u : Fin 1) (p : Fin 1024) (e : Fin 128) :
    bodyOut x w
      (View.ld K (Rect.unit (s := S4096x128) ![0, 0] S1024x128.size Facts₀.inb_S4096x128_S1024x128_0_0)) (View.ld V (Rect.unit (s := S4096x128) ![0, 0] S1024x128.size Facts₀.inb_S4096x128_S1024x128_0_0))
      (View.ld K (Rect.unit (s := S4096x128) ![1024, 0] S1024x128.size Facts₀.inb_S4096x128_S1024x128_1024_0)) (View.ld V (Rect.unit (s := S4096x128) ![1024, 0] S1024x128.size Facts₀.inb_S4096x128_S1024x128_1024_0))
      (View.ld K (Rect.unit (s := S4096x128) ![2048, 0] S1024x128.size Facts₀.inb_S4096x128_S1024x128_2048_0)) (View.ld V (Rect.unit (s := S4096x128) ![2048, 0] S1024x128.size Facts₀.inb_S4096x128_S1024x128_2048_0))
      (View.ld K (Rect.unit (s := S4096x128) ![3072, 0] S1024x128.size Facts₀.inb_S4096x128_S1024x128_3072_0)) (View.ld V (Rect.unit (s := S4096x128) ![3072, 0] S1024x128.size Facts₀.inb_S4096x128_S1024x128_3072_0)) (ix3 u p e)
      = ∑ t : Fin 4096, ((∑ d : Fin 128, queries x w (ix2 p d) * K (ix2 t d)) * scale) * V (ix2 t e) := by
  rw [bodyOut_apply x w (View.ld K (Rect.unit (s := S4096x128) ![0, 0] S1024x128.size Facts₀.inb_S4096x128_S1024x128_0_0)) (View.ld V (Rect.unit (s := S4096x128) ![0, 0] S1024x128.size Facts₀.inb_S4096x128_S1024x128_0_0)) (View.ld K (Rect.unit (s := S4096x128) ![1024, 0] S1024x128.size Facts₀.inb_S4096x128_S1024x128_1024_0)) (View.ld V (Rect.unit (s := S4096x128) ![1024, 0] S1024x128.size Facts₀.inb_S4096x128_S1024x128_1024_0)) (View.ld K (Rect.unit (s := S4096x128) ![2048, 0] S1024x128.size Facts₀.inb_S4096x128_S1024x128_2048_0)) (View.ld V (Rect.unit (s := S4096x128) ![2048, 0] S1024x128.size Facts₀.inb_S4096x128_S1024x128_2048_0)) (View.ld K (Rect.unit (s := S4096x128) ![3072, 0] S1024x128.size Facts₀.inb_S4096x128_S1024x128_3072_0)) (View.ld V (Rect.unit (s := S4096x128) ![3072, 0] S1024x128.size Facts₀.inb_S4096x128_S1024x128_3072_0)) hx hw (fun _ => hK _) (fun _ => hV _) (fun _ => hK _) (fun _ => hV _)
    (fun _ => hK _) (fun _ => hV _) (fun _ => hK _) (fun _ => hV _) u p e,
    sum_four_runs (fun t : Fin 4096 => ((∑ d : Fin 128, queries x w (ix2 p d) * K (ix2 t d)) * scale) * V (ix2 t e))]
  have run : ∀ (o : ℕ) (inb : ∀ a, (![o, 0] : Fin 2 → ℕ) a + (![1024, 128] : Fin 2 → ℕ) a ≤ S4096x128.size a)
      (ho : o + 1024 ≤ 4096),
      (∑ j : Fin 1024, ((∑ d : Fin 128, queries x w (ix2 p d)
          * View.ld K (Rect.unit (s := S4096x128) ![o, 0] ![1024, 128] inb) (ix2 j d)) * scale)
          * View.ld V (Rect.unit (s := S4096x128) ![o, 0] ![1024, 128] inb) (ix2 j e))
        = ∑ j : Fin 1024, ((∑ d : Fin 128, queries x w (ix2 p d)
            * K (ix2 (⟨o + j.val, by omega⟩ : Fin 4096) d)) * scale) * V (ix2 (⟨o + j.val, by omega⟩ : Fin 4096) e) :=
    fun o inb ho => Finset.sum_congr rfl fun j _ => by
      have hk : ∀ d : Fin 128, View.ld K (Rect.unit (s := S4096x128) ![o, 0] ![1024, 128] inb) (ix2 j d)
          = K (ix2 (⟨o + j.val, by omega⟩ : Fin 4096) d) :=
        fun d => Cert.RectReads.ld_rowBlock K o inb j d (by omega)
      have hv : View.ld V (Rect.unit (s := S4096x128) ![o, 0] ![1024, 128] inb) (ix2 j e)
          = V (ix2 (⟨o + j.val, by omega⟩ : Fin 4096) e) :=
        Cert.RectReads.ld_rowBlock V o inb j e (by omega)
      rw [hv]
      simp only [hk]
  rw [← run 0 Facts₀.inb_S4096x128_S1024x128_0_0 (by omega), ← run 1024 Facts₀.inb_S4096x128_S1024x128_1024_0 (by omega),
    ← run 2048 Facts₀.inb_S4096x128_S1024x128_2048_0 (by omega), ← run 3072 Facts₀.inb_S4096x128_S1024x128_3072_0 (by omega)]

end Cert.KernelIdeal.BodyValue

end
-- ==== Proof.PointValue.lean ====
/-
  One grid point's stores as functions of the whole argument arrays.

  A point (b, sq) of the grid sees rows sq·1024 … sq·1024 + 1023 of batch b of X, the whole of batch b of the context,
  and the three weight matrices whole.  Stated over a block x with x (0, p, d) = X (b, sq·1024 + p, d) and so on:
  * what the first tile of a batch stores into a scratch is the context's linear layer: entry (r, e) is
    ∑ d, C (b, r, d) · W (e, d);
  * with the scratches holding the keys and values of batch b, the output block's entry (0, p, e) is the attention
    chain's entry (b, sq·1024 + p, e): the queries the body computes from x are X's linear layer at that row.
  The inputs' entries are reals, hence so are the blocks', the keys' and the values'.
-/
import proofs.«158320_j10204842295864_2_alg».proof.Proof.BodyValue

noncomputable section

open scoped BigOperators

namespace Cert.KernelIdeal.PointValue

open Cert.KernelIdeal Cert.KernelIdeal.Gen Cert.KernelIdeal.Body Cert.KernelIdeal.BodyValue Cert.Attn Cert.RealEntries
open Idealize.ShloMosaic Idealize.ShloMosaic.ValueIdx

/-- The first tile's store into a scratch (the split projection of the context block): the linear layer of batch b. -/
theorem proj_linear (ctx : SB.Idx → EReal) (W : SW.Idx → EReal) (hc : ∀ i, IsReal (ctx i)) (hW : ∀ i, IsReal (W i))
    (b : Fin 4) (x1 : Vec Ideal S1x4096x128 .f32) (x3 : Vec Ideal S128x128 .f32)
    (hx1 : ∀ (u : Fin 1) (r : Fin 4096) (d : Fin 128), x1 (ix3 u r d) = ctx (ix3 b r d)) (hx3 : x3 = W)
    (r : Fin 4096) (e : Fin 128) :
    shapeCast S4096x128 (proj x1 x3) Facts₀.shapeCasts_S4096x128_S4096x128 (ix2 r e) = linear ctx W b r e := by
  have hr1 : ∀ i, IsReal (x1 i) := fun i => by
    obtain ⟨u, r', d, rfl⟩ : ∃ (u : Fin 1) (r' : Fin 4096) (d : Fin 128), i = ix3 u r' d := ⟨i 0, i 1, i 2, eq_ix3 i⟩
    rw [hx1]; exact hc _
  subst hx3
  rw [shapeCast_self, proj_apply x1 x3 hr1 hW]
  unfold linear
  exact Finset.sum_congr rfl fun d _ => by rw [hx1]

theorem pay3_linear (ctx : SB.Idx → EReal) (W : SW.Idx → EReal) (hc : ∀ i, IsReal (ctx i)) (hW : ∀ i, IsReal (W i))
    (b : Fin 4) (x1 : Vec Ideal S1x4096x128 .f32) (x3 : Vec Ideal S128x128 .f32)
    (hx1 : ∀ (u : Fin 1) (r : Fin 4096) (d : Fin 128), x1 (ix3 u r d) = ctx (ix3 b r d)) (hx3 : x3 = W)
    (r : Fin 4096) (e : Fin 128) : k0_pay3 x1 x3 (ix2 r e) = linear ctx W b r e :=
  (congrFun (pay3_eq x1 x3) _).trans (proj_linear ctx W hc hW b x1 x3 hx1 hx3 r e)

theorem pay4_linear (ctx : SB.Idx → EReal) (W : SW.Idx → EReal) (hc : ∀ i, IsReal (ctx i)) (hW : ∀ i, IsReal (W i))
    (b : Fin 4) (x1 : Vec Ideal S1x4096x128 .f32) (x4 : Vec Ideal S128x128 .f32)
    (hx1 : ∀ (u : Fin 1) (r : Fin 4096) (d : Fin 128), x1 (ix3 u r d) = ctx (ix3 b r d)) (hx4 : x4 = W)
    (r : Fin 4096) (e : Fin 128) : k0_pay4 x1 x4 (ix2 r e) = linear ctx W b r e :=
  (congrFun (pay4_eq x1 x4) _).trans (proj_linear ctx W hc hW b x1 x4 hx1 hx4 r e)

/-- The output block of point (b, sq), with the scratches at the keys and values of batch b, is the attention chain
    on rows sq·1024 … of batch b. -/
theorem point_out (ctx X : SB.Idx → EReal) (Wq Wk Wv : SW.Idx → EReal)
    (hc : ∀ i, IsReal (ctx i)) (hX : ∀ i, IsReal (X i)) (hq : ∀ i, IsReal (Wq i)) (hk : ∀ i, IsReal (Wk i))
    (hv : ∀ i, IsReal (Wv i)) (b : Fin 4) (sq : ℕ) (hsq : sq < 4)
    (x0 : Vec Ideal S1x1024x128 .f32) (x2 : Vec Ideal S128x128 .f32) (K V : Vec Ideal S4096x128 .f32)
    (hx0 : ∀ (u : Fin 1) (p : Fin 1024) (d : Fin 128),
      x0 (ix3 u p d) = X (ix3 b (⟨sq * 1024 + p.val, by omega⟩ : Fin 4096) d))
    (hx2 : x2 = Wq)
    (hK : ∀ (r : Fin 4096) (e : Fin 128), K (ix2 r e) = linear ctx Wk b r e)
    (hV : ∀ (r : Fin 4096) (e : Fin 128), V (ix2 r e) = linear ctx Wv b r e)
    (u : Fin 1) (p : Fin 1024) (e : Fin 128) :
    bodyOut x0 x2
        (View.ld K (Rect.unit (s := S4096x128) ![0, 0] S1024x128.size Facts₀.inb_S4096x128_S1024x128_0_0)) (View.ld V (Rect.unit (s := S4096x128) ![0, 0] S1024x128.size Facts₀.inb_S4096x128_S1024x128_0_0))
        (View.ld K (Rect.unit (s := S4096x128) ![1024, 0] S1024x128.size Facts₀.inb_S4096x128_S1024x128_1024_0)) (View.ld V (Rect.unit (s := S4096x128) ![1024, 0] S1024x128.size Facts₀.inb_S4096x128_S1024x128_1024_0))
        (View.ld K (Rect.unit (s := S4096x128) ![2048, 0] S1024x128.size Facts₀.inb_S4096x128_S1024x128_2048_0)) (View.ld V (Rect.unit (s := S4096x128) ![2048, 0] S1024x128.size Facts₀.inb_S4096x128_S1024x128_2048_0))
        (View.ld K (Rect.unit (s := S4096x128) ![3072, 0] S1024x128.size Facts₀.inb_S4096x128_S1024x128_3072_0)) (View.ld V (Rect.unit (s := S4096x128) ![3072, 0] S1024x128.size Facts₀.inb_S4096x128_S1024x128_3072_0)) (ix3 u p e)
      = attn scale ctx X Wq Wk Wv (ix3 b (⟨sq * 1024 + p.val, by omega⟩ : Fin 4096) e) := by
  have hr0 : ∀ i, IsReal (x0 i) := fun i => by
    obtain ⟨u', p', d, rfl⟩ : ∃ (u' : Fin 1) (p' : Fin 1024) (d : Fin 128), i = ix3 u' p' d := ⟨i 0, i 1, i 2, eq_ix3 i⟩
    rw [hx0]; exact hX _
  have hrK : ∀ i, IsReal (K i) := fun i => by
    obtain ⟨r, e', rfl⟩ : ∃ (r : Fin 4096) (e' : Fin 128), i = ix2 r e' := ⟨i 0, i 1, eq_ix2 i⟩
    rw [hK]; exact linear_real hc hk _ _ _
  have hrV : ∀ i, IsReal (V i) := fun i => by
    obtain ⟨r, e', rfl⟩ : ∃ (r : Fin 4096) (e' : Fin 128), i = ix2 r e' := ⟨i 0, i 1, eq_ix2 i⟩
    rw [hV]; exact linear_real hc hv _ _ _
  subst hx2
  rw [bodyOut_rows_apply x0 x2 K V hr0 hq hrK hrV u p e]
  unfold attn score
  refine Finset.sum_congr rfl fun t _ => ?_
  rw [hV]
  have hQ : ∀ d : Fin 128, queries x0 x2 (ix2 p d)
      = linear X x2 b (⟨sq * 1024 + p.val, by omega⟩ : Fin 4096) d := fun d => by
    rw [queries_apply x0 x2 hr0 hq]
    unfold linear
    exact Finset.sum_congr rfl fun d' _ => by rw [hx0]
  simp only [hQ, hK]

end Cert.KernelIdeal.PointValue

end
-- ==== Proof.KernelValue.lean ====
/-
  The kernel's result array, from its frame run.

  The grid has 16 points, t = 4·b + sq for batch b and query tile sq.  Point t sees rows sq·1024 … of batch b of X,
  batch b of the context, and the weights whole, and writes rows sq·1024 … of batch b of the result.
  * The two scratches: after every point t they hold the keys and the values of batch t / 4 — the first tile of a batch
    stores them, the other tiles leave them as the point before left them, and that point belongs to the same batch.
    By induction along the points.
  * So every point's output block is the attention chain on its rows, the blocks tile the result array (the point
    covering row s of batch b is 4·b + s / 1024), and the array after the run is the attention chain of the arguments.
-/
import proofs.«158320_j10204842295864_2_alg».proof.Proof.Gen.KernelIdeal.Value
import proofs.«158320_j10204842295864_2_alg».proof.Proof.Pieces
import proofs.«158320_j10204842295864_2_alg».proof.Proof.PointValue

set_option maxRecDepth 16384

noncomputable section

open scoped BigOperators

namespace Cert.KernelIdeal.KernelValue

open Cert.KernelIdeal Cert.KernelIdeal.Gen Cert.KernelIdeal.Body Cert.KernelIdeal.Pieces Cert.KernelIdeal.BodyValue
open Cert.KernelIdeal.PointValue Cert.Attn Cert.RealEntries
open Idealize.ShloMosaic Idealize.ShloMosaic.TcCoe Idealize.ShloMosaic.ValueIdx Idealize.SL.Sem
open Idealize.ShloMosaic.Pipeline (Dat)

/-! ## The case terms over blocks given by their entries -/

/-- Case A's key scratch, from a context block that is batch b of `ctx` and the key weights. -/
theorem sA0_linear (c : Dev nD) (i : grid0.Coords) (arg2 : Memref sig .tc .vmem S1x1024x128 .f32) (harg2 : arg2.IsWhole) (arg3 : Memref sig .tc .vmem S1x4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1024x128 .f32) (harg7 : arg7.IsWhole) (arg8 : Memref sig .tc .vmem S4096x128 .f32) (harg8 : arg8.IsWhole) (arg9 : Memref sig .tc .vmem S4096x128 .f32) (harg9 : arg9.IsWhole) (hc0 : cond0_0 i) (x0 : Vec Ideal S1x1024x128 .f32) (x1 : Vec Ideal S1x4096x128 .f32) (x2 : Vec Ideal S128x128 .f32) (x3 : Vec Ideal S128x128 .f32) (x4 : Vec Ideal S128x128 .f32)
    (ctx : SB.Idx → EReal) (W : SW.Idx → EReal) (hc : ∀ i, IsReal (ctx i)) (hW : ∀ i, IsReal (W i)) (b : Fin 4)
    (hx1 : ∀ (u : Fin 1) (r : Fin 4096) (d : Fin 128), x1 (ix3 u r d) = ctx (ix3 b r d)) (hx3 : x3 = W) (r : Fin 4096) (e : Fin 128) :
    sout0_A_0 c i arg2 harg2 arg3 harg3 arg4 harg4 arg5 harg5 arg6 harg6 arg7 harg7 arg8 harg8 arg9 harg9 hc0 x0 x1 x2 x3 x4 (ix2 r e) = linear ctx W b r e := by
  rw [sout_A_0 c i arg2 harg2 arg3 harg3 arg4 harg4 arg5 harg5 arg6 harg6 arg7 harg7 arg8 harg8 arg9 harg9 hc0 x0 x1 x2 x3 x4]
  exact pay3_linear ctx W hc hW b x1 x3 hx1 hx3 r e

/-- Case A's value scratch, likewise with the value weights. -/
theorem sA1_linear (c : Dev nD) (i : grid0.Coords) (arg2 : Memref sig .tc .vmem S1x1024x128 .f32) (harg2 : arg2.IsWhole) (arg3 : Memref sig .tc .vmem S1x4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1024x128 .f32) (harg7 : arg7.IsWhole) (arg8 : Memref sig .tc .vmem S4096x128 .f32) (harg8 : arg8.IsWhole) (arg9 : Memref sig .tc .vmem S4096x128 .f32) (harg9 : arg9.IsWhole) (hc0 : cond0_0 i) (x0 : Vec Ideal S1x1024x128 .f32) (x1 : Vec Ideal S1x4096x128 .f32) (x2 : Vec Ideal S128x128 .f32) (x3 : Vec Ideal S128x128 .f32) (x4 : Vec Ideal S128x128 .f32)
    (ctx : SB.Idx → EReal) (W : SW.Idx → EReal) (hc : ∀ i, IsReal (ctx i)) (hW : ∀ i, IsReal (W i)) (b : Fin 4)
    (hx1 : ∀ (u : Fin 1) (r : Fin 4096) (d : Fin 128), x1 (ix3 u r d) = ctx (ix3 b r d)) (hx4 : x4 = W) (r : Fin 4096) (e : Fin 128) :
    sout0_A_1 c i arg2 harg2 arg3 harg3 arg4 harg4 arg5 harg5 arg6 harg6 arg7 harg7 arg8 harg8 arg9 harg9 hc0 x0 x1 x2 x3 x4 (ix2 r e) = linear ctx W b r e := by
  rw [sout_A_1 c i arg2 harg2 arg3 harg3 arg4 harg4 arg5 harg5 arg6 harg6 arg7 harg7 arg8 harg8 arg9 harg9 hc0 x0 x1 x2 x3 x4]
  exact pay4_linear ctx W hc hW b x1 x4 hx1 hx4 r e

/-- Case A's output block is the attention chain on the tile's rows. -/
theorem oA5_attn (c : Dev nD) (i : grid0.Coords) (arg2 : Memref sig .tc .vmem S1x1024x128 .f32) (harg2 : arg2.IsWhole) (arg3 : Memref sig .tc .vmem S1x4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1024x128 .f32) (harg7 : arg7.IsWhole) (arg8 : Memref sig .tc .vmem S4096x128 .f32) (harg8 : arg8.IsWhole) (arg9 : Memref sig .tc .vmem S4096x128 .f32) (harg9 : arg9.IsWhole) (hc0 : cond0_0 i) (x0 : Vec Ideal S1x1024x128 .f32) (x1 : Vec Ideal S1x4096x128 .f32) (x2 : Vec Ideal S128x128 .f32) (x3 : Vec Ideal S128x128 .f32) (x4 : Vec Ideal S128x128 .f32)
    (ctx X : SB.Idx → EReal) (Wq Wk Wv : SW.Idx → EReal)
    (hc : ∀ i, IsReal (ctx i)) (hX : ∀ i, IsReal (X i)) (hq : ∀ i, IsReal (Wq i)) (hk : ∀ i, IsReal (Wk i))
    (hv : ∀ i, IsReal (Wv i)) (b : Fin 4) (sq : ℕ) (hsq : sq < 4)
    (hx0 : ∀ (u : Fin 1) (p : Fin 1024) (d : Fin 128),
      x0 (ix3 u p d) = X (ix3 b (⟨sq * 1024 + p.val, by omega⟩ : Fin 4096) d)) (hx2 : x2 = Wq)
    (hx1 : ∀ (u : Fin 1) (r : Fin 4096) (d : Fin 128), x1 (ix3 u r d) = ctx (ix3 b r d)) (hx3 : x3 = Wk) (hx4 : x4 = Wv) (u : Fin 1) (p : Fin 1024) (e : Fin 128) :
    out0_A_5 c i arg2 harg2 arg3 harg3 arg4 harg4 arg5 harg5 arg6 harg6 arg7 harg7 arg8 harg8 arg9 harg9 hc0 x0 x1 x2 x3 x4 (ix3 u p e)
      = attn scale ctx X Wq Wk Wv (ix3 b (⟨sq * 1024 + p.val, by omega⟩ : Fin 4096) e) := by
  rw [out_A_5 c i arg2 harg2 arg3 harg3 arg4 harg4 arg5 harg5 arg6 harg6 arg7 harg7 arg8 harg8 arg9 harg9 hc0 x0 x1 x2 x3 x4]
  exact point_out ctx X Wq Wk Wv hc hX hq hk hv b sq hsq x0 x2 (k0_pay3 x1 x3) (k0_pay4 x1 x4) hx0 hx2
    (fun r e' => pay3_linear ctx Wk hc hk b x1 x3 hx1 hx3 r e')
    (fun r e' => pay4_linear ctx Wv hc hv b x1 x4 hx1 hx4 r e') u p e

/-- Case B's output block, over scratches that hold the keys and values of batch b. -/
theorem oB5_attn (c : Dev nD) (i : grid0.Coords) (arg2 : Memref sig .tc .vmem S1x1024x128 .f32) (harg2 : arg2.IsWhole) (arg3 : Memref sig .tc .vmem S1x4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x1024x128 .f32) (harg7 : arg7.IsWhole) (arg8 : Memref sig .tc .vmem S4096x128 .f32) (harg8 : arg8.IsWhole) (arg9 : Memref sig .tc .vmem S4096x128 .f32) (harg9 : arg9.IsWhole) (hc0 : ¬cond0_0 i) (x0 : Vec Ideal S1x1024x128 .f32) (x1 : Vec Ideal S1x4096x128 .f32) (x2 : Vec Ideal S128x128 .f32) (x3 : Vec Ideal S128x128 .f32) (x4 : Vec Ideal S128x128 .f32) (xs0 xs1 : Vec Ideal S4096x128 .f32)
    (ctx X : SB.Idx → EReal) (Wq Wk Wv : SW.Idx → EReal)
    (hc : ∀ i, IsReal (ctx i)) (hX : ∀ i, IsReal (X i)) (hq : ∀ i, IsReal (Wq i)) (hk : ∀ i, IsReal (Wk i))
    (hv : ∀ i, IsReal (Wv i)) (b : Fin 4) (sq : ℕ) (hsq : sq < 4)
    (hx0 : ∀ (u : Fin 1) (p : Fin 1024) (d : Fin 128),
      x0 (ix3 u p d) = X (ix3 b (⟨sq * 1024 + p.val, by omega⟩ : Fin 4096) d)) (hx2 : x2 = Wq)
    (hK : ∀ (r : Fin 4096) (e : Fin 128), xs0 (ix2 r e) = linear ctx Wk b r e)
    (hV : ∀ (r : Fin 4096) (e : Fin 128), xs1 (ix2 r e) = linear ctx Wv b r e)
    (u : Fin 1) (p : Fin 1024) (e : Fin 128) :
    out0_B_5 c i arg2 harg2 arg3 harg3 arg4 harg4 arg5 harg5 arg6 harg6 arg7 harg7 arg8 harg8 arg9 harg9 hc0 x0 x1 x2 x3 x4 xs0 xs1 (ix3 u p e)
      = attn scale ctx X Wq Wk Wv (ix3 b (⟨sq * 1024 + p.val, by omega⟩ : Fin 4096) e) := by
  rw [out_B_5 c i arg2 harg2 arg3 harg3 arg4 harg4 arg5 harg5 arg6 harg6 arg7 harg7 arg8 harg8 arg9 harg9 hc0 x0 x1 x2 x3 x4 xs0 xs1]
  exact point_out ctx X Wq Wk Wv hc hX hq hk hv b sq hsq x0 x2 xs0 xs1 hx0 hx2 hK hV u p e

variable (m : (ℓ : Loc nD τ sig) → Buf (Elt Ideal) ℓ) (ρ : Dev nD → PrngReg)

theorem t_lt (t : Fin cfg0.N) : t.val < 16 := lt_of_lt_of_eq t.isLt (show cfg0.N = 16 from N_0)

/-! ## The index maps over the grid -/

theorem idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = 0
    ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val / 4 ∧ win0_5.index t (1 : Fin 3) = t.val % 4
    ∧ win0_5.index t (2 : Fin 3) = 0 :=
  (by decide +kernel : ∀ t : Fin grid0.N, _)

/-! ## The input blocks at a point -/

/-- Point t's block of X: rows (t % 4)·1024 … of batch t / 4. -/
theorem iblk_X (c : Dev nD) (t : Fin cfg0.N) (b : Fin 4) (hb : b.val = t.val / 4) (u : Fin 1) (p : Fin 1024) (d : Fin 128) :
    (iblk m c 0 t : Vec Ideal S1x1024x128 .f32) (ix3 u p d)
      = V m c main_arg1 (ix3 b (⟨t.val % 4 * 1024 + p.val, by omega⟩ : Fin 4096) d) := by
  obtain ⟨e0, e1, e2⟩ := idx0 t
  have hu : u.val = 0 := by omega
  show V m c main_arg1 (((cfg0.win 0).blk t).view.emb (ix3 u p d)) = _
  refine congrArg (V m c main_arg1) (funext fun a => Fin.ext ?_)
  match a with
  | ⟨0, _⟩ => show win0_0.index t (0 : Fin 3) * 1 + 1 * u.val = b.val; omega
  | ⟨1, _⟩ => show win0_0.index t (1 : Fin 3) * 1024 + 1 * p.val = t.val % 4 * 1024 + p.val; omega
  | ⟨2, _⟩ => show win0_0.index t (2 : Fin 3) * 128 + 1 * d.val = d.val; omega

/-- Point t's block of the context: all of batch t / 4. -/
theorem iblk_ctx (c : Dev nD) (t : Fin cfg0.N) (b : Fin 4) (hb : b.val = t.val / 4) (u : Fin 1) (r : Fin 4096) (d : Fin 128) :
    (iblk m c 1 t : Vec Ideal S1x4096x128 .f32) (ix3 u r d) = V m c main_arg0 (ix3 b r d) := by
  obtain ⟨e0, e1, e2⟩ := idx1 t
  have hu : u.val = 0 := by omega
  show V m c main_arg0 (((cfg0.win 1).blk t).view.emb (ix3 u r d)) = _
  refine congrArg (V m c main_arg0) (funext fun a => Fin.ext ?_)
  match a with
  | ⟨0, _⟩ => show win0_1.index t (0 : Fin 3) * 1 + 1 * u.val = b.val; omega
  | ⟨1, _⟩ => show win0_1.index t (1 : Fin 3) * 4096 + 1 * r.val = r.val; omega
  | ⟨2, _⟩ => show win0_1.index t (2 : Fin 3) * 128 + 1 * d.val = d.val; omega

/-- The weight windows hold their arrays whole at every point. -/
theorem iblk_Wq (c : Dev nD) (t : Fin cfg0.N) : (iblk m c 2 t : Vec Ideal S128x128 .f32) = V m c main_arg2 := by
  obtain ⟨e0, e1⟩ := idx2 t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem iblk_Wk (c : Dev nD) (t : Fin cfg0.N) : (iblk m c 3 t : Vec Ideal S128x128 .f32) = V m c main_arg3 := by
  obtain ⟨e0, e1⟩ := idx3 t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem iblk_Wv (c : Dev nD) (t : Fin cfg0.N) : (iblk m c 4 t : Vec Ideal S128x128 .f32) = V m c main_arg4 := by
  obtain ⟨e0, e1⟩ := idx4 t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-! ## The scratches after every point -/

/-- After point t the key scratch holds the keys and the value scratch the values of batch t / 4. -/
theorem scratch_inv (c : Dev nD) (hc : ∀ i, IsReal (V m c main_arg0 i)) (hX : ∀ i, IsReal (V m c main_arg1 i)) (hq : ∀ i, IsReal (V m c main_arg2 i))
    (hk : ∀ i, IsReal (V m c main_arg3 i)) (hv : ∀ i, IsReal (V m c main_arg4 i)) :
    ∀ (n : ℕ) (t : Fin cfg0.N), t.val = n → ∀ (b : Fin 4), b.val = t.val / 4 →
      (∀ (r : Fin 4096) (e : Fin 128),
        (outsAt0 m c t.val t.isLt).2.1 (ix2 r e) = linear (V m c main_arg0) (V m c main_arg3) b r e)
      ∧ (∀ (r : Fin 4096) (e : Fin 128),
        (outsAt0 m c t.val t.isLt).2.2 (ix2 r e) = linear (V m c main_arg0) (V m c main_arg4) b r e) := by
  intro n
  induction n using Nat.strong_induction_on with
  | _ n ih =>
    intro t htn b hb
    have hN := t_lt t
    by_cases h0 : t.val % 4 = 0
    · rw [outsAt0_A m c t h0]
      dsimp only
      exact ⟨fun r e' => sA0_linear c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)
          (V m c main_arg0) (V m c main_arg3) hc hk b (fun u r d => iblk_ctx m c t b hb u r d) (iblk_Wk m c t) r e',
        fun r e' => sA1_linear c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)
          (V m c main_arg0) (V m c main_arg4) hc hv b (fun u r d => iblk_ctx m c t b hb u r d) (iblk_Wv m c t) r e'⟩
    · rw [outsAt0_B m c t h0]
      dsimp only [sout0_B_0, sout0_B_1]
      exact ih (n - 1) (by omega) (⟨t.val - 1, Nat.lt_of_le_of_lt (Nat.sub_le _ _) t.isLt⟩ : Fin cfg0.N) (by show t.val - 1 = n - 1; omega) b (by show b.val = (t.val - 1) / 4; omega)

/-! ## The output block of every point -/

/-- What point t leaves in its output block: the attention chain on rows (t % 4)·1024 … of batch t / 4. -/
theorem out_inv (c : Dev nD) (hc : ∀ i, IsReal (V m c main_arg0 i)) (hX : ∀ i, IsReal (V m c main_arg1 i)) (hq : ∀ i, IsReal (V m c main_arg2 i))
    (hk : ∀ i, IsReal (V m c main_arg3 i)) (hv : ∀ i, IsReal (V m c main_arg4 i))
    (t : Fin cfg0.N) (b : Fin 4) (hb : b.val = t.val / 4) (u : Fin 1) (p : Fin 1024) (e : Fin 128) :
    (outsAt0 m c t.val t.isLt).1 (ix3 u p e)
      = attn scale (V m c main_arg0) (V m c main_arg1) (V m c main_arg2) (V m c main_arg3) (V m c main_arg4) (ix3 b (⟨t.val % 4 * 1024 + p.val, by omega⟩ : Fin 4096) e) := by
  have hN := t_lt t
  by_cases h0 : t.val % 4 = 0
  · rw [outsAt0_A m c t h0]
    dsimp only
    exact oA5_attn c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)
      (V m c main_arg0) (V m c main_arg1) (V m c main_arg2) (V m c main_arg3) (V m c main_arg4) hc hX hq hk hv b (t.val % 4) (by omega)
      (fun u p d => iblk_X m c t b hb u p d) (iblk_Wq m c t) (fun u r d => iblk_ctx m c t b hb u r d)
      (iblk_Wk m c t) (iblk_Wv m c t) u p e
  · have hs := scratch_inv m c hc hX hq hk hv (t.val - 1) (⟨t.val - 1, Nat.lt_of_le_of_lt (Nat.sub_le _ _) t.isLt⟩ : Fin cfg0.N) rfl b (by show b.val = (t.val - 1) / 4; omega)
    rw [outsAt0_B m c t h0]
    dsimp only
    exact oB5_attn c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2.1
      (outsAt0 m c (t.val - 1) (Nat.lt_of_le_of_lt (Nat.sub_le _ _) t.isLt)).2.2
      (V m c main_arg0) (V m c main_arg1) (V m c main_arg2) (V m c main_arg3) (V m c main_arg4) hc hX hq hk hv b (t.val % 4) (by omega)
      (fun u p d => iblk_X m c t b hb u p d) (iblk_Wq m c t) hs.1 hs.2 u p e

/-- What point t writes back is block t of the attention chain of the argument arrays. -/
theorem flushed_eq (c : Dev nD) (hc : ∀ i, IsReal (V m c main_arg0 i)) (hX : ∀ i, IsReal (V m c main_arg1 i)) (hq : ∀ i, IsReal (V m c main_arg2 i))
    (hk : ∀ i, IsReal (V m c main_arg3 i)) (hv : ∀ i, IsReal (V m c main_arg4 i)) (t : Fin cfg0.N) :
    (dats m 0 c).flushed 5 t = ((cfg0.win 5).blk t).view.read (Elt Ideal) (attn scale (V m c main_arg0) (V m c main_arg1) (V m c main_arg2) (V m c main_arg3) (V m c main_arg4)) := by
  have hN := t_lt t
  obtain ⟨e0, e1, e2⟩ := idx5 t
  rw [Cert.KernelIdeal.Value.flushed5]
  funext y
  obtain ⟨u, p, e, rfl⟩ : ∃ (u : Fin 1) (p : Fin 1024) (e : Fin 128), y = ix3 u p e := ⟨y 0, y 1, y 2, eq_ix3 y⟩
  have hu : u.val = 0 := by omega
  show (outsAt0 m c t.val t.isLt).1 (ix3 u p e) = attn scale (V m c main_arg0) (V m c main_arg1) (V m c main_arg2) (V m c main_arg3) (V m c main_arg4) (((cfg0.win 5).blk t).view.emb (ix3 u p e))
  rw [out_inv m c hc hX hq hk hv t (⟨t.val / 4, by omega⟩ : Fin 4) rfl u p e]
  refine congrArg (attn scale (V m c main_arg0) (V m c main_arg1) (V m c main_arg2) (V m c main_arg3) (V m c main_arg4)) (funext fun a => Fin.ext ?_)
  match a with
  | ⟨0, _⟩ => show t.val / 4 = win0_5.index t (0 : Fin 3) * 1 + 1 * u.val; omega
  | ⟨1, _⟩ => show t.val % 4 * 1024 + p.val = win0_5.index t (1 : Fin 3) * 1024 + 1 * p.val; omega
  | ⟨2, _⟩ => show e.val = win0_5.index t (2 : Fin 3) * 128 + 1 * e.val; omega

/-! ## The blocks tile the result array -/

theorem mem_blk5 (t : Fin cfg0.N) (i : S4x4096x128.Idx) :
    i ∈ ((cfg0.win 5).blk t).view.set ↔ ∀ a : Fin 3, win0_5.index t a * S1x1024x128.size a ≤ (i a).val
      ∧ (i a).val < win0_5.index t a * S1x1024x128.size a + S1x1024x128.size a := by
  show i ∈ ((View.whole main_v0).slice (win0_5.rect t)).set ↔ _
  rw [View.set_slice_whole, Rect.mem_set_unit]
  exact Iff.rfl

/-- Row s of batch b is written by point 4·b + s / 1024. -/
theorem cover5 (i : S4x4096x128.Idx) :
    ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 128 := (i 2).isLt
  obtain ⟨t, ht⟩ : ∃ t : Fin cfg0.N, t.val = 4 * (i 0).val + (i 1).val / 1024 :=
    ⟨⟨4 * (i 0).val + (i 1).val / 1024, by rw [show cfg0.N = 16 from N_0]; omega⟩, rfl⟩
  obtain ⟨e0, e1, e2⟩ := idx5 t
  refine ⟨t, flush0_5 t, ?_⟩
  rw [mem_blk5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1024 ≤ (i 1).val ∧ (i 1).val < win0_5.index t (1 : Fin 3) * 1024 + 1024
    omega
  | ⟨2, _⟩ =>
    show win0_5.index t (2 : Fin 3) * 128 ≤ (i 2).val ∧ (i 2).val < win0_5.index t (2 : Fin 3) * 128 + 128
    omega

/-- The result array after the run is the attention chain of the argument arrays. -/
theorem final (c : Dev nD) (hc : ∀ i, IsReal (V m c main_arg0 i)) (hX : ∀ i, IsReal (V m c main_arg1 i)) (hq : ∀ i, IsReal (V m c main_arg2 i))
    (hk : ∀ i, IsReal (V m c main_arg3 i)) (hv : ∀ i, IsReal (V m c main_arg4 i)) :
    (dats m 0 c).arrAt 5 cfg0.N = attn scale (V m c main_arg0) (V m c main_arg1) (V m c main_arg2) (V m c main_arg3) (V m c main_arg4) :=
  (dats m 0 c).arrAt_eq_of_cover 5 (attn scale (V m c main_arg0) (V m c main_arg1) (V m c main_arg2) (V m c main_arg3) (V m c main_arg4))
    (fun t _ => flushed_eq m c hc hX hq hk hv t) cover5

/-! ## The run -/

/-- On inputs of real numbers every weakly fair execution ends with the result array at the attention chain of the
    arguments, and the arguments unchanged. -/
theorem run (hfin : ∀ c : Dev nD,
      (∀ i, IsReal (V m c main_arg0 i)) ∧ (∀ i, IsReal (V m c main_arg1 i)) ∧ (∀ i, IsReal (V m c main_arg2 i))
      ∧ (∀ i, IsReal (V m c main_arg3 i)) ∧ (∀ i, IsReal (V m c main_arg4 i))) :
    θ_run defs (onTc (τ := τ) (main (F := Ideal))) ⟨m, fun _ => 0, ρ⟩ fun r => ∀ c : Dev nD,
      r.2.mem ((c : Thread nD τ).loc main_v0) = attn scale (V m c main_arg0) (V m c main_arg1) (V m c main_arg2) (V m c main_arg3) (V m c main_arg4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨(h c).1.trans (final m c (hfin c).1 (hfin c).2.1 (hfin c).2.2.1 (hfin c).2.2.2.1 (hfin c).2.2.2.2), (h c).2⟩)
    (Cert.KernelIdeal.Value.run_blocks m ρ)

end Cert.KernelIdeal.KernelValue

end
-- ==== Proof.RefValue.lean ====
/-
  The reference computes the specification.

  Its last stage is the batched product of the scaled scores [4, 4096, 4096] with the values [4, 4096, 128]; the scores
  are the batched product of the queries with the keys, times a broadcast scalar; queries, keys and values are products
  of an input with a weight matrix contracting the feature axis of both.  Read index by index, each product is a sum
  over the contracted coordinate, and the coordinates the nested index maps select are the ones the specification names.
-/
import proofs.«158320_j10204842295864_2_alg».proof.Proof.Gen.ReferenceIdeal.Read
import proofs.«158320_j10204842295864_2_alg».proof.Proof.Spec

noncomputable section

open scoped BigOperators

namespace Cert.ReferenceIdeal.RefValue

open Cert.ReferenceIdeal Cert.ReferenceIdeal.Read Cert.Attn Idealize.ShloMosaic Idealize.ShloMosaic.ValueIdx

/-- An index of a rank-3 array is determined by its three coordinates. -/
theorem idx3_eq {n0 n1 n2 : ℕ} (a : Fin n0) (b : Fin n1) (c : Fin n2) (j : (⟨3, ![n0, n1, n2]⟩ : Shape).Idx)
    (h0 : (j 0).val = a.val) (h1 : (j 1).val = b.val) (h2 : (j 2).val = c.val) : j = ix3 a b c :=
  funext fun q => Fin.ext (by
    match q with
    | ⟨0, _⟩ => exact h0
    | ⟨1, _⟩ => exact h1
    | ⟨2, _⟩ => exact h2)

theorem idx2_eq {n0 n1 : ℕ} (a : Fin n0) (b : Fin n1) (j : (⟨2, ![n0, n1]⟩ : Shape).Idx)
    (h0 : (j 0).val = a.val) (h1 : (j 1).val = b.val) : j = ix2 a b :=
  funext fun q => Fin.ext (by
    match q with
    | ⟨0, _⟩ => exact h0
    | ⟨1, _⟩ => exact h1)

/-- The reference's result is the attention chain of its arguments, with the scale its printed constant. -/
theorem ref_eq (x0 x1 : (⟨S4x4096x128, .f32⟩ : BufTy).Contents (Elt Ideal))
    (x2 x3 x4 : (⟨S128x128, .f32⟩ : BufTy).Contents (Elt Ideal)) :
    val_main_v6 (F := Ideal) x0 x1 x2 x3 x4 = attn (Ideal.ofBits .f32 0x3DB504F3#32) x0 x1 x2 x3 x4 := by
  funext i
  rw [val_main_v6_apply]
  unfold attn
  refine Finset.sum_congr rfl fun t _ => ?_
  rw [val_main_v5_apply, val_main_v3_apply, val_main_v4_apply, val_main_cst_apply, val_main_v2_apply]
  have e0 : ∀ d d' : Fin 128, lidx_main_v0 (lidx_main_v3 (lidx_main_v6 i t) d) d' = ix3 (i 0) (i 1) d' :=
    fun d d' => idx3_eq _ _ _ _ rfl rfl rfl
  have e0r : ∀ d d' : Fin 128, ridx_main_v0 (lidx_main_v3 (lidx_main_v6 i t) d) d' = ix2 d d' :=
    fun d d' => idx2_eq _ _ _ rfl rfl
  have e1 : ∀ d d' : Fin 128, lidx_main_v1 (ridx_main_v3 (lidx_main_v6 i t) d) d' = ix3 (i 0) t d' :=
    fun d d' => idx3_eq _ _ _ _ rfl rfl rfl
  have e1r : ∀ d d' : Fin 128, ridx_main_v1 (ridx_main_v3 (lidx_main_v6 i t) d) d' = ix2 d d' :=
    fun d d' => idx2_eq _ _ _ rfl rfl
  have e2 : ∀ d : Fin 128, lidx_main_v2 (ridx_main_v6 i t) d = ix3 (i 0) t d :=
    fun d => idx3_eq _ _ _ _ rfl rfl rfl
  have e2r : ∀ d : Fin 128, ridx_main_v2 (ridx_main_v6 i t) d = ix2 (i 2) d :=
    fun d => idx2_eq _ _ _ rfl rfl
  simp only [val_main_v0_apply, val_main_v1_apply, e0, e0r, e1, e1r, e2, e2r, Ideal.mulf_def, Ideal.ofBits_def]
  rfl

end Cert.ReferenceIdeal.RefValue

end
-- ==== Proof.Finite.lean ====
/-
  The precondition says every input entry is a real number.

  The printed predicate is the conjunction, input by input, of "all entries satisfy |x| < +inf", each "all" an
  and-reduction over every axis.  An and that is 1 has both operands 1, an and-reduction that is 1 met only 1s, and
  |x| = max x (-x) is below +inf exactly when x is neither infinity, that is, when x is a real.
-/
import proofs.«158320_j10204842295864_2_alg».proof.Pre_finite_inputs
import proofs.«158320_j10204842295864_2_alg».proof.Proof.Spec
import Idealize.ShloMosaic.Lib.ReduceAll
import Idealize.ShloMosaic.Lib.ValueIdx

noncomputable section

namespace Cert.Finite

open Cert.Attn Cert.RealEntries Idealize.ShloMosaic

instance : Subsingleton Cert.Pre_finite_inputs.S_.Idx := ⟨fun a b => funext fun d => d.elim0⟩

variable [Cert.Pre_finite_inputs.Facts]

/-- One conjunct of the predicate: an all-reduction of |a| < +inf that is 1 makes every entry of a a real. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf a) (broadcastInDim s ![] hb (constant (F := Ideal) Cert.Pre_finite_inputs.S_ .f32 0x7F800000#32)))
        (constantI Cert.Pre_finite_inputs.S_ 1 1#1) hr hu ValueIdx.ix0 = 1#1) (i : s.Idx) : IsReal (a i) := by
  have hi := Host.reduce_andi_all _ _ hr hu ValueIdx.ix0 h i
  refine real_of_abs_lt_top (a i) ?_
  rw [← top_word]
  exact hi

/-- The precondition at the exact values: all five inputs hold reals. -/
theorem reals_of_pre (a0 a1 : FVec Ideal Cert.Pre_finite_inputs.S4x4096x128 .f32)
    (a2 a3 a4 : FVec Ideal Cert.Pre_finite_inputs.S128x128 .f32)
    (h : Cert.Pre_finite_inputs.fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all a0 _ _ _ h0', real_of_all a1 _ _ _ h1, real_of_all a2 _ _ _ h2, real_of_all a3 _ _ _ h3,
    real_of_all a4 _ _ _ h4⟩

end Cert.Finite

end
-- ==== Proof.lean ====
/-
  The proof of `Cert.Claim`: a fused attention kernel without softmax against its einsum reference.

  Both programs compute, at (b, s, e), the sum over the 4096 key positions t of
  ((∑ d, q (b,s,d) · k (b,t,d)) · c) · v (b,t,e) with q = X·Wqᵀ, k = C·Wkᵀ, v = C·Wvᵀ and c the same f32 scale word.
  The reference does it with five whole-array products.  The kernel walks a 4 × 4 grid (batch, query tile), keeps a
  batch's keys and values in two scratch buffers filled at the batch's first tile, cuts the key axis into four runs of
  1024, and evaluates every product as a three-term split hi·hi + hi·lo + lo·hi whose low parts read x - x once
  narrowing-then-widening is the identity.  On finite inputs every value met is a real, x - x = 0, each split product is
  the plain product, and the four runs add up to the whole sum: the two results agree entry by entry.  On an infinite
  input x - x is not 0, which is why the precondition is used.

  The three frames are the generated ones (the reference's is its generated run with the result dropped); each
  idealization rewrite replaced widen(narrow(x)) by x, and its conjunct is that rule's statement at the site's shape.
-/
import proofs.«158320_j10204842295864_2_alg».proof.Defs
import proofs.«158320_j10204842295864_2_alg».proof.Proof.Gen.Kernel
import proofs.«158320_j10204842295864_2_alg».proof.Proof.Gen.Kernel.Skeleton
import proofs.«158320_j10204842295864_2_alg».proof.Proof.Gen.Kernel.Launch
import proofs.«158320_j10204842295864_2_alg».proof.Proof.Gen.Kernel.Points
import proofs.«158320_j10204842295864_2_alg».proof.Proof.Gen.Kernel.Frame
import proofs.«158320_j10204842295864_2_alg».proof.Proof.Gen.KernelIdeal
import proofs.«158320_j10204842295864_2_alg».proof.Proof.Gen.KernelIdeal.Skeleton
import proofs.«158320_j10204842295864_2_alg».proof.Proof.Gen.KernelIdeal.Launch
import proofs.«158320_j10204842295864_2_alg».proof.Proof.Gen.KernelIdeal.Points
import proofs.«158320_j10204842295864_2_alg».proof.Proof.Gen.KernelIdeal.Frame
import proofs.«158320_j10204842295864_2_alg».proof.Proof.Gen.ReferenceIdeal
import proofs.«158320_j10204842295864_2_alg».proof.Proof.Gen.Pre_finite_inputs
import proofs.«158320_j10204842295864_2_alg».proof.Proof.Gen.KernelIdeal.Value
import proofs.«158320_j10204842295864_2_alg».proof.Proof.Gen.ReferenceIdeal.Run
import proofs.«158320_j10204842295864_2_alg».proof.Proof.Gen.ReferenceIdeal.Read
import proofs.«158320_j10204842295864_2_alg».proof.Proof.KernelValue
import proofs.«158320_j10204842295864_2_alg».proof.Proof.RefValue
import proofs.«158320_j10204842295864_2_alg».proof.Proof.Finite
import Idealize.ShloMosaic.Adequacy
import Idealize.ShloMosaic.Init

noncomputable section

namespace Cert.Proof

open Idealize.ShloMosaic Idealize.ShloMosaic.TcCoe Idealize.SL.Sem Cert.Attn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Each of the 22 rewrites replaced a widening of a narrowing by its operand: at the exact values that is the
    identity, at the word level the rounding through bf16. -/
theorem preserves : Cert.preserves_Kernel_KernelIdeal :=
  ⟨IdealRules.truncf_extf.statement Cert.KernelIdeal.S4096x128 .f32 .bf16,
    IdealRules.truncf_extf.statement Cert.KernelIdeal.S128x128 .f32 .bf16,
    IdealRules.truncf_extf.statement Cert.KernelIdeal.S4096x128 .f32 .bf16,
    IdealRules.truncf_extf.statement Cert.KernelIdeal.S128x128 .f32 .bf16,
    IdealRules.truncf_extf.statement Cert.KernelIdeal.S1024x128 .f32 .bf16,
    IdealRules.truncf_extf.statement Cert.KernelIdeal.S128x128 .f32 .bf16,
    IdealRules.truncf_extf.statement Cert.KernelIdeal.S1024x128 .f32 .bf16,
    IdealRules.truncf_extf.statement Cert.KernelIdeal.S1024x128 .f32 .bf16,
    IdealRules.truncf_extf.statement Cert.KernelIdeal.S1024x1024 .f32 .bf16,
    IdealRules.truncf_extf.statement Cert.KernelIdeal.S1024x128 .f32 .bf16,
    IdealRules.truncf_extf.statement Cert.KernelIdeal.S1024x128 .f32 .bf16,
    IdealRules.truncf_extf.statement Cert.KernelIdeal.S1024x128 .f32 .bf16,
    IdealRules.truncf_extf.statement Cert.KernelIdeal.S1024x1024 .f32 .bf16,
    IdealRules.truncf_extf.statement Cert.KernelIdeal.S1024x128 .f32 .bf16,
    IdealRules.truncf_extf.statement Cert.KernelIdeal.S1024x128 .f32 .bf16,
    IdealRules.truncf_extf.statement Cert.KernelIdeal.S1024x128 .f32 .bf16,
    IdealRules.truncf_extf.statement Cert.KernelIdeal.S1024x1024 .f32 .bf16,
    IdealRules.truncf_extf.statement Cert.KernelIdeal.S1024x128 .f32 .bf16,
    IdealRules.truncf_extf.statement Cert.KernelIdeal.S1024x128 .f32 .bf16,
    IdealRules.truncf_extf.statement Cert.KernelIdeal.S1024x128 .f32 .bf16,
    IdealRules.truncf_extf.statement Cert.KernelIdeal.S1024x1024 .f32 .bf16,
    IdealRules.truncf_extf.statement Cert.KernelIdeal.S1024x128 .f32 .bf16⟩

/-- Under the precondition all inputs hold reals, the kernel's result array ends at the attention chain of its
    arguments, the reference's last stage is the same function of arguments that agree. -/
theorem algebraic : Cert.algebraic_KernelIdeal_ReferenceIdeal := by
  intro m ρ m' ρ' hpre hagree
  have hfin := fun c : Dev Cert.KernelIdeal.nD => Cert.Finite.reals_of_pre _ _ _ _ _ (hpre c)
  refine ⟨fun c => attn Cert.KernelIdeal.BodyValue.scale (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KernelValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
